-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_

variable [Facts]

def fn_part1 {F : FTy → Type} [FloatOps F] (main_v10 : IVec S_ 1) (main_v15 : IVec S800000 1) (main_c_5 : IVec S_ 1) : IVec S_ 1 :=
  let main_v16 : IVec S_ 1 := (fun x v => Host.reduce IntOp.andi x v reducesTo_S800000_S_d0 h_S_) main_v15 main_c_5
  let main_v17 : IVec S_ 1 := andi main_v10 main_v16
  main_v17

def fn {F : FTy → Type} [FloatOps F] (main_arg0 : FVec F S50000x64 .f32) (main_arg1 : IVec S800000 32) (main_arg2 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_c_0 : IVec S_ 32 := constantI S_ 32 0#32
  let main_v4 : IVec S800000 32 := broadcastInDim S800000 ![] bcast_S_S800000 main_c_0
  let main_v5 : IVec S800000 1 := cmpi .sge main_arg1 main_v4
  let main_c_1 : IVec S_ 32 := constantI S_ 32 50000#32
  let main_v6 : IVec S800000 32 := broadcastInDim S800000 ![] bcast_S_S800000 main_c_1
  let main_v7 : IVec S800000 1 := cmpi .slt main_arg1 main_v6
  let main_v8 : IVec S800000 1 := andi main_v5 main_v7
  let main_c_2 : IVec S_ 1 := constantI S_ 1 1#1
  let main_v9 : IVec S_ 1 := (fun x v => Host.reduce IntOp.andi x v reducesTo_S800000_S_d0 h_S_) main_v8 main_c_2
  let main_v10 : IVec S_ 1 := andi main_v3 main_v9
  let main_c_3 : IVec S_ 32 := constantI S_ 32 0#32
  let main_v11 : IVec S800000 32 := broadcastInDim S800000 ![] bcast_S_S800000 main_c_3
  let main_v12 : IVec S800000 1 := cmpi .sge main_arg2 main_v11
  let main_c_4 : IVec S_ 32 := constantI S_ 32 50000#32
  let main_v13 : IVec S800000 32 := broadcastInDim S800000 ![] bcast_S_S800000 main_c_4
  let main_v14 : IVec S800000 1 := cmpi .slt main_arg2 main_v13
  let main_v15 : IVec S800000 1 := andi main_v12 main_v14
  let main_c_5 : IVec S_ 1 := constantI S_ 1 1#1
  fn_part1 (F := F) main_v10 main_v15 main_c_5
-- ==== Kernel.lean ====
abbrev S50000x64 : Shape := ⟨2, ![50000, 64]⟩
abbrev S800000 : Shape := ⟨1, ![800000]⟩
abbrev S800000x64 : Shape := ⟨2, ![800000, 64]⟩
abbrev S256 : Shape := ⟨1, ![256]⟩
abbrev S256x64 : Shape := ⟨2, ![256, 64]⟩
abbrev S8x64 : Shape := ⟨2, ![8, 64]⟩
abbrev S1 : Shape := ⟨1, ![1]⟩
abbrev S1x64 : Shape := ⟨2, ![1, 64]⟩

abbrev nBuf : Space → Nat
  | .hbm => 4
  | .vmem => 4
  | .smem => 4
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000x64, .f32⟩
  | .local _ .vmem, ⟨0, _⟩ => ⟨S50000x64, .f32⟩
  | .local _ .vmem, ⟨1, _⟩ => ⟨S256x64, .f32⟩
  | .local _ .vmem, ⟨2, _⟩ => ⟨S256x64, .f32⟩
  | .local _ .vmem, ⟨3, _⟩ => ⟨S8x64, .f32⟩
  | .local _ .smem, ⟨0, _⟩ => ⟨S256, .i32⟩
  | .local _ .smem, ⟨1, _⟩ => ⟨S256, .i32⟩
  | .local _ .smem, ⟨2, _⟩ => ⟨S256, .i32⟩
  | .local _ .smem, ⟨3, _⟩ => ⟨S256, .i32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_scratch0 : Ref sig .tc := ⟨.vmem, 3, rfl⟩
abbrev cc0_stg1_0 : Ref sig .tc := ⟨.smem, 0, rfl⟩
abbrev cc0_stg1_1 : Ref sig .tc := ⟨.smem, 1, rfl⟩
abbrev cc0_stg2_0 : Ref sig .tc := ⟨.smem, 2, rfl⟩
abbrev cc0_stg2_1 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3125], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 1 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let c8_i32 : BitVec 32 := 8#32
  let v3 : BitVec 32 := Scalar.muli v2 c8_i32
  let c0_i32_3 : BitVec 32 := 0#32
  let v4 : BitVec 32 := Scalar.addi v3 c0_i32_3
  let v5 : Index := Scalar.indexCast v4
  ![v5.toNat]
def k0_off2 (v6 : BitVec 32) : Fin 2 → Nat :=
  let v10 : Index := Scalar.indexCast v6
  let c0 : Index := 0#32
  ![v10.toNat, 0]

def k0_chk1 (v6 : BitVec 32) : Prop :=
  (∀ a, (k0_off2 v6) a + S1x64.size a ≤ S50000x64.size a)
instance k0_chk1.dec : ∀ (v6 : BitVec 32), Decidable (k0_chk1 v6) := fun v6 => decidable_of_iff' _ (Iff.of_eq (k0_chk1.eq_1 v6))
theorem k0_off2_inb : ∀ (v6 : BitVec 32) (k0_hw1 : k0_chk1 v6), ∀ a, (k0_off2 v6) a + S1x64.size a ≤ S50000x64.size a := fun v6 k0_hw1 => k0_hw1

def k0_off3 (v9 : BitVec 32) : Fin 2 → Nat :=
  let v12 : Index := Scalar.indexCast v9
  let c0_5 : Index := 0#32
  ![v12.toNat, 0]

def k0_chk2 (v9 : BitVec 32) : Prop :=
  (∀ a, (k0_off3 v9) a + S1x64.size a ≤ S50000x64.size a)
instance k0_chk2.dec : ∀ (v9 : BitVec 32), Decidable (k0_chk2 v9) := fun v9 => decidable_of_iff' _ (Iff.of_eq (k0_chk2.eq_1 v9))
theorem k0_off3_inb : ∀ (v9 : BitVec 32) (k0_hw2 : k0_chk2 v9), ∀ a, (k0_off3 v9) a + S1x64.size a ≤ S50000x64.size a := fun v9 k0_hw2 => k0_hw2

def k0_off4 (k0_t1 : Fin k0_t1_loop.trips) : Fin 1 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let c8_i32 : BitVec 32 := 8#32
  let v3 : BitVec 32 := Scalar.muli v2 c8_i32
  let c1_i32_8 : BitVec 32 := 1#32
  let v18 : BitVec 32 := Scalar.addi v3 c1_i32_8
  let v19 : Index := Scalar.indexCast v18
  ![v19.toNat]
def k0_off5 (v20 : BitVec 32) : Fin 2 → Nat :=
  let v24 : Index := Scalar.indexCast v20
  let c0_10 : Index := 0#32
  ![v24.toNat, 0]

def k0_chk3 (v20 : BitVec 32) : Prop :=
  (∀ a, (k0_off5 v20) a + S1x64.size a ≤ S50000x64.size a)
instance k0_chk3.dec : ∀ (v20 : BitVec 32), Decidable (k0_chk3 v20) := fun v20 => decidable_of_iff' _ (Iff.of_eq (k0_chk3.eq_1 v20))
theorem k0_off5_inb : ∀ (v20 : BitVec 32) (k0_hw3 : k0_chk3 v20), ∀ a, (k0_off5 v20) a + S1x64.size a ≤ S50000x64.size a := fun v20 k0_hw3 => k0_hw3

def k0_off6 (v23 : BitVec 32) : Fin 2 → Nat :=
  let v26 : Index := Scalar.indexCast v23
  let c0_11 : Index := 0#32
  ![v26.toNat, 0]

def k0_chk4 (v23 : BitVec 32) : Prop :=
  (∀ a, (k0_off6 v23) a + S1x64.size a ≤ S50000x64.size a)
instance k0_chk4.dec : ∀ (v23 : BitVec 32), Decidable (k0_chk4 v23) := fun v23 => decidable_of_iff' _ (Iff.of_eq (k0_chk4.eq_1 v23))
theorem k0_off6_inb : ∀ (v23 : BitVec 32) (k0_hw4 : k0_chk4 v23), ∀ a, (k0_off6 v23) a + S1x64.size a ≤ S50000x64.size a := fun v23 k0_hw4 => k0_hw4

def k0_off7 (k0_t1 : Fin k0_t1_loop.trips) : Fin 1 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let c8_i32 : BitVec 32 := 8#32
  let v3 : BitVec 32 := Scalar.muli v2 c8_i32
  let c2_i32 : BitVec 32 := 2#32
  let v32 : BitVec 32 := Scalar.addi v3 c2_i32
  let v33 : Index := Scalar.indexCast v32
  ![v33.toNat]
def k0_off8 (v34 : BitVec 32) : Fin 2 → Nat :=
  let v38 : Index := Scalar.indexCast v34
  let c0_14 : Index := 0#32
  ![v38.toNat, 0]

def k0_chk5 (v34 : BitVec 32) : Prop :=
  (∀ a, (k0_off8 v34) a + S1x64.size a ≤ S50000x64.size a)
instance k0_chk5.dec : ∀ (v34 : BitVec 32), Decidable (k0_chk5 v34) := fun v34 => decidable_of_iff' _ (Iff.of_eq (k0_chk5.eq_1 v34))
theorem k0_off8_inb : ∀ (v34 : BitVec 32) (k0_hw5 : k0_chk5 v34), ∀ a, (k0_off8 v34) a + S1x64.size a ≤ S50000x64.size a := fun v34 k0_hw5 => k0_hw5

def k0_off9 (v37 : BitVec 32) : Fin 2 → Nat :=
  let v40 : Index := Scalar.indexCast v37
  let c0_15 : Index := 0#32
  ![v40.toNat, 0]

def k0_chk6 (v37 : BitVec 32) : Prop :=
  (∀ a, (k0_off9 v37) a + S1x64.size a ≤ S50000x64.size a)
instance k0_chk6.dec : ∀ (v37 : BitVec 32), Decidable (k0_chk6 v37) := fun v37 => decidable_of_iff' _ (Iff.of_eq (k0_chk6.eq_1 v37))
theorem k0_off9_inb : ∀ (v37 : BitVec 32) (k0_hw6 : k0_chk6 v37), ∀ a, (k0_off9 v37) a + S1x64.size a ≤ S50000x64.size a := fun v37 k0_hw6 => k0_hw6

def k0_off10 (k0_t1 : Fin k0_t1_loop.trips) : Fin 1 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let c8_i32 : BitVec 32 := 8#32
  let v3 : BitVec 32 := Scalar.muli v2 c8_i32
  let c3_i32 : BitVec 32 := 3#32
  let v46 : BitVec 32 := Scalar.addi v3 c3_i32
  let v47 : Index := Scalar.indexCast v46
  ![v47.toNat]
def k0_off11 (v48 : BitVec 32) : Fin 2 → Nat :=
  let v52 : Index := Scalar.indexCast v48
  let c0_18 : Index := 0#32
  ![v52.toNat, 0]

def k0_chk7 (v48 : BitVec 32) : Prop :=
  (∀ a, (k0_off11 v48) a + S1x64.size a ≤ S50000x64.size a)
instance k0_chk7.dec : ∀ (v48 : BitVec 32), Decidable (k0_chk7 v48) := fun v48 => decidable_of_iff' _ (Iff.of_eq (k0_chk7.eq_1 v48))
theorem k0_off11_inb : ∀ (v48 : BitVec 32) (k0_hw7 : k0_chk7 v48), ∀ a, (k0_off11 v48) a + S1x64.size a ≤ S50000x64.size a := fun v48 k0_hw7 => k0_hw7

def k0_off12 (v51 : BitVec 32) : Fin 2 → Nat :=
  let v54 : Index := Scalar.indexCast v51
  let c0_19 : Index := 0#32
  ![v54.toNat, 0]

def k0_chk8 (v51 : BitVec 32) : Prop :=
  (∀ a, (k0_off12 v51) a + S1x64.size a ≤ S50000x64.size a)
instance k0_chk8.dec : ∀ (v51 : BitVec 32), Decidable (k0_chk8 v51) := fun v51 => decidable_of_iff' _ (Iff.of_eq (k0_chk8.eq_1 v51))
theorem k0_off12_inb : ∀ (v51 : BitVec 32) (k0_hw8 : k0_chk8 v51), ∀ a, (k0_off12 v51) a + S1x64.size a ≤ S50000x64.size a := fun v51 k0_hw8 => k0_hw8

def k0_off13 (k0_t1 : Fin k0_t1_loop.trips) : Fin 1 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let c8_i32 : BitVec 32 := 8#32
  let v3 : BitVec 32 := Scalar.muli v2 c8_i32
  let c4_i32 : BitVec 32 := 4#32
  let v60 : BitVec 32 := Scalar.addi v3 c4_i32
  let v61 : Index := Scalar.indexCast v60
  ![v61.toNat]
def k0_off14 (v62 : BitVec 32) : Fin 2 → Nat :=
  let v66 : Index := Scalar.indexCast v62
  let c0_22 : Index := 0#32
  ![v66.toNat, 0]

def k0_chk9 (v62 : BitVec 32) : Prop :=
  (∀ a, (k0_off14 v62) a + S1x64.size a ≤ S50000x64.size a)
instance k0_chk9.dec : ∀ (v62 : BitVec 32), Decidable (k0_chk9 v62) := fun v62 => decidable_of_iff' _ (Iff.of_eq (k0_chk9.eq_1 v62))
theorem k0_off14_inb : ∀ (v62 : BitVec 32) (k0_hw9 : k0_chk9 v62), ∀ a, (k0_off14 v62) a + S1x64.size a ≤ S50000x64.size a := fun v62 k0_hw9 => k0_hw9

def k0_off15 (v65 : BitVec 32) : Fin 2 → Nat :=
  let v68 : Index := Scalar.indexCast v65
  let c0_23 : Index := 0#32
  ![v68.toNat, 0]

def k0_chk10 (v65 : BitVec 32) : Prop :=
  (∀ a, (k0_off15 v65) a + S1x64.size a ≤ S50000x64.size a)
instance k0_chk10.dec : ∀ (v65 : BitVec 32), Decidable (k0_chk10 v65) := fun v65 => decidable_of_iff' _ (Iff.of_eq (k0_chk10.eq_1 v65))
theorem k0_off15_inb : ∀ (v65 : BitVec 32) (k0_hw10 : k0_chk10 v65), ∀ a, (k0_off15 v65) a + S1x64.size a ≤ S50000x64.size a := fun v65 k0_hw10 => k0_hw10

def k0_off16 (k0_t1 : Fin k0_t1_loop.trips) : Fin 1 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let c8_i32 : BitVec 32 := 8#32
  let v3 : BitVec 32 := Scalar.muli v2 c8_i32
  let c5_i32 : BitVec 32 := 5#32
  let v74 : BitVec 32 := Scalar.addi v3 c5_i32
  let v75 : Index := Scalar.indexCast v74
  ![v75.toNat]
def k0_off17 (v76 : BitVec 32) : Fin 2 → Nat :=
  let v80 : Index := Scalar.indexCast v76
  let c0_26 : Index := 0#32
  ![v80.toNat, 0]

def k0_chk11 (v76 : BitVec 32) : Prop :=
  (∀ a, (k0_off17 v76) a + S1x64.size a ≤ S50000x64.size a)
instance k0_chk11.dec : ∀ (v76 : BitVec 32), Decidable (k0_chk11 v76) := fun v76 => decidable_of_iff' _ (Iff.of_eq (k0_chk11.eq_1 v76))
theorem k0_off17_inb : ∀ (v76 : BitVec 32) (k0_hw11 : k0_chk11 v76), ∀ a, (k0_off17 v76) a + S1x64.size a ≤ S50000x64.size a := fun v76 k0_hw11 => k0_hw11

def k0_off18 (v79 : BitVec 32) : Fin 2 → Nat :=
  let v82 : Index := Scalar.indexCast v79
  let c0_27 : Index := 0#32
  ![v82.toNat, 0]

def k0_chk12 (v79 : BitVec 32) : Prop :=
  (∀ a, (k0_off18 v79) a + S1x64.size a ≤ S50000x64.size a)
instance k0_chk12.dec : ∀ (v79 : BitVec 32), Decidable (k0_chk12 v79) := fun v79 => decidable_of_iff' _ (Iff.of_eq (k0_chk12.eq_1 v79))
theorem k0_off18_inb : ∀ (v79 : BitVec 32) (k0_hw12 : k0_chk12 v79), ∀ a, (k0_off18 v79) a + S1x64.size a ≤ S50000x64.size a := fun v79 k0_hw12 => k0_hw12

def k0_off19 (k0_t1 : Fin k0_t1_loop.trips) : Fin 1 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let c8_i32 : BitVec 32 := 8#32
  let v3 : BitVec 32 := Scalar.muli v2 c8_i32
  let c6_i32 : BitVec 32 := 6#32
  let v88 : BitVec 32 := Scalar.addi v3 c6_i32
  let v89 : Index := Scalar.indexCast v88
  ![v89.toNat]
def k0_off20 (v90 : BitVec 32) : Fin 2 → Nat :=
  let v94 : Index := Scalar.indexCast v90
  let c0_30 : Index := 0#32
  ![v94.toNat, 0]

def k0_chk13 (v90 : BitVec 32) : Prop :=
  (∀ a, (k0_off20 v90) a + S1x64.size a ≤ S50000x64.size a)
instance k0_chk13.dec : ∀ (v90 : BitVec 32), Decidable (k0_chk13 v90) := fun v90 => decidable_of_iff' _ (Iff.of_eq (k0_chk13.eq_1 v90))
theorem k0_off20_inb : ∀ (v90 : BitVec 32) (k0_hw13 : k0_chk13 v90), ∀ a, (k0_off20 v90) a + S1x64.size a ≤ S50000x64.size a := fun v90 k0_hw13 => k0_hw13

def k0_off21 (v93 : BitVec 32) : Fin 2 → Nat :=
  let v96 : Index := Scalar.indexCast v93
  let c0_31 : Index := 0#32
  ![v96.toNat, 0]

def k0_chk14 (v93 : BitVec 32) : Prop :=
  (∀ a, (k0_off21 v93) a + S1x64.size a ≤ S50000x64.size a)
instance k0_chk14.dec : ∀ (v93 : BitVec 32), Decidable (k0_chk14 v93) := fun v93 => decidable_of_iff' _ (Iff.of_eq (k0_chk14.eq_1 v93))
theorem k0_off21_inb : ∀ (v93 : BitVec 32) (k0_hw14 : k0_chk14 v93), ∀ a, (k0_off21 v93) a + S1x64.size a ≤ S50000x64.size a := fun v93 k0_hw14 => k0_hw14

def k0_off22 (k0_t1 : Fin k0_t1_loop.trips) : Fin 1 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let c8_i32 : BitVec 32 := 8#32
  let v3 : BitVec 32 := Scalar.muli v2 c8_i32
  let c7_i32 : BitVec 32 := 7#32
  let v102 : BitVec 32 := Scalar.addi v3 c7_i32
  let v103 : Index := Scalar.indexCast v102
  ![v103.toNat]
def k0_off23 (v104 : BitVec 32) : Fin 2 → Nat :=
  let v108 : Index := Scalar.indexCast v104
  let c0_34 : Index := 0#32
  ![v108.toNat, 0]

def k0_chk15 (v104 : BitVec 32) : Prop :=
  (∀ a, (k0_off23 v104) a + S1x64.size a ≤ S50000x64.size a)
instance k0_chk15.dec : ∀ (v104 : BitVec 32), Decidable (k0_chk15 v104) := fun v104 => decidable_of_iff' _ (Iff.of_eq (k0_chk15.eq_1 v104))
theorem k0_off23_inb : ∀ (v104 : BitVec 32) (k0_hw15 : k0_chk15 v104), ∀ a, (k0_off23 v104) a + S1x64.size a ≤ S50000x64.size a := fun v104 k0_hw15 => k0_hw15

def k0_off24 (v107 : BitVec 32) : Fin 2 → Nat :=
  let v110 : Index := Scalar.indexCast v107
  let c0_35 : Index := 0#32
  ![v110.toNat, 0]

def k0_chk16 (v107 : BitVec 32) : Prop :=
  (∀ a, (k0_off24 v107) a + S1x64.size a ≤ S50000x64.size a)
instance k0_chk16.dec : ∀ (v107 : BitVec 32), Decidable (k0_chk16 v107) := fun v107 => decidable_of_iff' _ (Iff.of_eq (k0_chk16.eq_1 v107))
theorem k0_off24_inb : ∀ (v107 : BitVec 32) (k0_hw16 : k0_chk16 v107), ∀ a, (k0_off24 v107) a + S1x64.size a ≤ S50000x64.size a := fun v107 k0_hw16 => k0_hw16

def k0_off25 (k0_t1 : Fin k0_t1_loop.trips) : Fin 2 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let c8_i32 : BitVec 32 := 8#32
  let v3 : BitVec 32 := Scalar.muli v2 c8_i32
  let v117 : Index := Scalar.indexCast v3
  let c0_39 : Index := 0#32
  ![v117.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S50000x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .smem S256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  numel1_S1 : S1.numel = 1
  h_S1x64 : 0 < S1x64.numel
  inb_S8x64_S1x64_0_0 : ∀ a, (![0, 0] : Fin 2 → Nat) a + S1x64.size a ≤ S8x64.size a
  shapeCasts_S1x64_S1x64 : S1x64.ShapeCasts S1x64
  inb_S8x64_S1x64_1_0 : ∀ a, (![1, 0] : Fin 2 → Nat) a + S1x64.size a ≤ S8x64.size a
  inb_S8x64_S1x64_2_0 : ∀ a, (![2, 0] : Fin 2 → Nat) a + S1x64.size a ≤ S8x64.size a
  inb_S8x64_S1x64_3_0 : ∀ a, (![3, 0] : Fin 2 → Nat) a + S1x64.size a ≤ S8x64.size a
  inb_S8x64_S1x64_4_0 : ∀ a, (![4, 0] : Fin 2 → Nat) a + S1x64.size a ≤ S8x64.size a
  inb_S8x64_S1x64_5_0 : ∀ a, (![5, 0] : Fin 2 → Nat) a + S1x64.size a ≤ S8x64.size a
  inb_S8x64_S1x64_6_0 : ∀ a, (![6, 0] : Fin 2 → Nat) a + S1x64.size a ≤ S8x64.size a
  inb_S8x64_S1x64_7_0 : ∀ a, (![7, 0] : Fin 2 → Nat) a + S1x64.size a ≤ S8x64.size a
  inb_S8x64_S8x64_0_0 : ∀ a, (![0, 0] : Fin 2 → Nat) a + S8x64.size a ≤ S8x64.size a
  h_S8x64 : 0 < S8x64.numel
  hrank0 : 0 < grid0.rank
  k0_t1_ok : k0_t1_loop.OK
  k0_off1_inb : ∀ k0_t1 : Fin k0_t1_loop.trips, ∀ a, (k0_off1 k0_t1) a + S1.size a ≤ S256.size a
  k0_off4_inb : ∀ k0_t1 : Fin k0_t1_loop.trips, ∀ a, (k0_off4 k0_t1) a + S1.size a ≤ S256.size a
  k0_off7_inb : ∀ k0_t1 : Fin k0_t1_loop.trips, ∀ a, (k0_off7 k0_t1) a + S1.size a ≤ S256.size a
  k0_off10_inb : ∀ k0_t1 : Fin k0_t1_loop.trips, ∀ a, (k0_off10 k0_t1) a + S1.size a ≤ S256.size a
  k0_off13_inb : ∀ k0_t1 : Fin k0_t1_loop.trips, ∀ a, (k0_off13 k0_t1) a + S1.size a ≤ S256.size a
  k0_off16_inb : ∀ k0_t1 : Fin k0_t1_loop.trips, ∀ a, (k0_off16 k0_t1) a + S1.size a ≤ S256.size a
  k0_off19_inb : ∀ k0_t1 : Fin k0_t1_loop.trips, ∀ a, (k0_off19 k0_t1) a + S1.size a ≤ S256.size a
  k0_off22_inb : ∀ k0_t1 : Fin k0_t1_loop.trips, ∀ a, (k0_off22 k0_t1) a + S1.size a ≤ S256.size a
  k0_off25_inb : ∀ k0_t1 : Fin k0_t1_loop.trips, ∀ a, (k0_off25 k0_t1) a + S8x64.size a ≤ S256x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S50000x64.size a ≤ S50000x64.size a
  hwx0_0 : ∀ i : grid0.Coords, EltTy.bits .f32 = 32 ∨ (Rect.block (s := S50000x64) S50000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S800000.size a
  hwx0_1 : ∀ i : grid0.Coords, EltTy.bits .i32 = 32 ∨ (Rect.block (s := S800000) S256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S800000.size a
  hwx0_2 : ∀ i : grid0.Coords, EltTy.bits .i32 = 32 ∨ (Rect.block (s := S800000) S256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S800000x64.size a
  hwx0_3 : ∀ i : grid0.Coords, EltTy.bits .f32 = 32 ∨ (Rect.block (s := S800000x64) S256x64.size (cc0_transform_3 i) (hinb0_3 i)).WholeWords (EltTy.packing .f32)

variable [Facts₀]

abbrev win0_0 : Pipeline.Window sig grid0 :=
  Pipeline.Window.ofSpec (Memref.whole main_arg0) S50000x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000 : Shape := ⟨1, ![800000]⟩
abbrev S_ : Shape := ⟨0, ![]⟩
abbrev S800000x1 : Shape := ⟨2, ![800000, 1]⟩
abbrev S800000x64 : Shape := ⟨2, ![800000, 64]⟩

abbrev nBuf : Space → Nat
  | .hbm => 22
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S_, .i32⟩
  | .hbm, ⟨4, _⟩ => ⟨S800000, .i32⟩
  | .hbm, ⟨5, _⟩ => ⟨S800000, .i1⟩
  | .hbm, ⟨6, _⟩ => ⟨S_, .i32⟩
  | .hbm, ⟨7, _⟩ => ⟨S800000, .i32⟩
  | .hbm, ⟨8, _⟩ => ⟨S800000, .i32⟩
  | .hbm, ⟨9, _⟩ => ⟨S800000, .i32⟩
  | .hbm, ⟨10, _⟩ => ⟨S800000x1, .i32⟩
  | .hbm, ⟨11, _⟩ => ⟨S800000x64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  gather_S50000x64_S800000x1_S800000x64_1_0_n_n_0_1_164_wf : GatherDims.WF S50000x64 S800000x1 S800000x64 [1] [0] [] [0] [] 1 ![1, 64]

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

class Facts : Prop extends Facts₀ where

variable [Facts]
-- ==== Proof.Spec.lean ====
/-
  What the kernel and the reference both compute, stated once over the three argument arrays: a table `h` of
  50000 feature rows of 64 numbers and two lists `src`, `dst` of 800000 row numbers. Entry (e, j) of the result is
  h[src e, j] · h[dst e, j]: the elementwise product of the two rows that edge `e` names.
  A row number is a 32-bit word. `rowOf` reads it unsigned and reduces it modulo 50000, which makes the definition
  total; for a word below 50000 — the only case either program is asked about — it is the word itself (`rowOf_val`).
-/
import Idealize.ShloMosaic.PureOps.Ideal
import Idealize.ShloMosaic.Lib.ValueIdx

noncomputable section

namespace Cert.EdgeProduct

open Idealize.ShloMosaic Idealize.ShloMosaic.ValueIdx

/-- The table's shape, the lists' shape, the result's shape. -/
abbrev TableShape : Shape := ⟨2, ![50000, 64]⟩
abbrev EdgeShape : Shape := ⟨1, ![800000]⟩
abbrev OutShape : Shape := ⟨2, ![800000, 64]⟩

/-- The table row a word names. -/
def rowOf (w : BitVec 32) : Fin 50000 := ⟨w.toNat % 50000, Nat.mod_lt _ (by norm_num)⟩

/-- For a word below 50000 the row is the word. -/
theorem rowOf_val (w : BitVec 32) (h : w.toNat < 50000) : (rowOf w).val = w.toNat := Nat.mod_eq_of_lt h

variable {F : FTy → Type} [FloatOps F]

/-- Entry (r, j) of the table. -/
abbrev tableAt (h : Vec F TableShape .f32) (r : Fin 50000) (j : Fin 64) : F .f32 := h (ix2 r j)

/-- The product of the two rows an edge names, column by column. -/
def edgeProduct (h : Vec F TableShape .f32) (src dst : IVec EdgeShape 32) : Vec F OutShape .f32 :=
  fun y => FloatOps.mulf (tableAt h (rowOf (src (ix1 (y 0 : Fin 800000)))) (y 1 : Fin 64))
    (tableAt h (rowOf (dst (ix1 (y 0 : Fin 800000)))) (y 1 : Fin 64))

end Cert.EdgeProduct

end
-- ==== Proof.WordRange.lean ====
/-
  From the precondition to the range of the row numbers. The precondition is one bit: the conjunction of three
  "for all" statements, each printed as a reduction by `and` of an array of bits that must come out 1. Two of them say,
  of every word of `src` and of every word of `dst`, that it is at least 0 and below 50000 when read as a signed number.
  A 32-bit word that is nonnegative when read signed reads the same unsigned, so each such word, read as a natural
  number, is below 50000: it names a row of the table.
-/
import proofs.«116091_j24240795419355_2_alg».proof.Pre_finite_inputs
import proofs.«116091_j24240795419355_2_alg».proof.Proof.Gen.Pre_finite_inputs
import proofs.«116091_j24240795419355_2_alg».proof.Proof.Spec
import Idealize.ShloMosaic.Lib.ReduceAll

namespace Cert.EdgeProduct

open Idealize.ShloMosaic Idealize.ShloMosaic.ValueIdx

/-- A word in [0, 50000) signed is below 50000 unsigned. -/
theorem toNat_lt_of_signed_range (w : BitVec 32) (h0 : IntOp.cmpi .sge w (0#32) = 1#1)
    (h1 : IntOp.cmpi .slt w (50000#32) = 1#1) : w.toNat < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  have hlt := w.isLt
  rw [BitVec.toInt_eq_toNat_cond] at h0 h1
  split at h0 <;> omega

/-- The result of a reduction over all axes has one index. -/
instance : Subsingleton Cert.Pre_finite_inputs.S_.Idx := ⟨fun a b => funext fun d => d.elim0⟩

variable {F : FTy → Type} [FloatOps F]

/-- Under the precondition every word of `src` and every word of `dst` is below 50000. -/
theorem words_in_range [Cert.Pre_finite_inputs.Facts] (a0 : FVec F Cert.Pre_finite_inputs.S50000x64 .f32)
    (a1 a2 : IVec Cert.Pre_finite_inputs.S800000 32)
    (hpre : Cert.Pre_finite_inputs.fn (F := F) a0 a1 a2 = fun _ => 1#1) :
    (∀ i, (a1 i).toNat < 50000) ∧ (∀ i, (a2 i).toNat < 50000) := by
  have e := congrFun hpre ix0
  dsimp only [Cert.Pre_finite_inputs.fn, Cert.Pre_finite_inputs.fn_part1] at e
  obtain ⟨e12, e3⟩ := IntOp.andi_eq_one.1 e
  obtain ⟨_, e2⟩ := IntOp.andi_eq_one.1 e12
  refine ⟨fun i => ?_, fun i => ?_⟩
  · obtain ⟨h0, h1⟩ := IntOp.andi_eq_one.1 (Host.reduce_andi_all _ _ _ _ _ e2 i)
    exact toNat_lt_of_signed_range _ h0 h1
  · obtain ⟨h0, h1⟩ := IntOp.andi_eq_one.1 (Host.reduce_andi_all _ _ _ _ _ e3 i)
    exact toNat_lt_of_signed_range _ h0 h1

end Cert.EdgeProduct
-- ==== Proof.DataB.lean ====
/-
  The proof data of the one pipeline: what each window's staging buffer holds after the body at a grid point.
  The grid has 3125 points; at point t the table window holds the whole table, the two index windows hold words
  256t … 256t+255 of `src` and `dst`, and the output window ends holding `blockOut` of them: row r of the block is the
  column-by-column product of the table rows that word r of each index block names.
-/
import proofs.«116091_j24240795419355_2_alg».proof.Proof.Gen.Kernel.Frame
import proofs.«116091_j24240795419355_2_alg».proof.Proof.Spec
import Idealize.ShloMosaic.Lib.Pipeline.Frame

set_option maxRecDepth 16384

noncomputable section

namespace Cert.Kernel.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EdgeProduct

variable {F : FTy → Type} [FloatOps F]

/-- One block of the result: row r is the product of the table rows that words r of the two index blocks name. -/
def blockOut (x : Vec F S50000x64 .f32) (s d : IVec S256 32) : Vec F S256x64 .f32 :=
  fun y => FloatOps.mulf (x (ix2 (rowOf (s (ix1 (y 0 : Fin 256)))) (y 1 : Fin 64)))
    (x (ix2 (rowOf (d (ix1 (y 0 : Fin 256)))) (y 1 : Fin 64)))

variable (m : (ℓ : Loc nD τ sig) → Buf (Elt F) ℓ)

/-- The proof data on core c: the arrays as the region finds them; after the body at point t the three inputs' buffers
    at their blocks and the output's at `blockOut` of them; the invariant is the scratch block at any contents and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = blockOut (iblk m c 0 t) (iblk m c 1 t) (iblk m c 2 t) := by dsimp only [dats]

end Cert.Kernel.Gen

end
-- ==== Proof.WordsB.lean ====
/-
  The input windows' blocks as pieces of the argument arrays. The grid has 3125 points. At point t the table window's
  block is the whole [50000, 64] table, and the blocks of the two index windows are words 256t … 256t + 255 of `src` and
  of `dst`: a block's coordinate on an axis is the window's block index there times the block's extent, plus the
  coordinate inside the block, and the block indices are 0, 0 for the table and t for the two lists (decided over the
  grid). So a bound that holds for every word of a list holds for every word of each of its blocks.
-/
import proofs.«116091_j24240795419355_2_alg».proof.Proof.DataB
import proofs.«116091_j24240795419355_2_alg».proof.Proof.Gen.Kernel.Frame
import proofs.«116091_j24240795419355_2_alg».proof.Proof.Gen.Kernel.Points
import Idealize.ShloMosaic.Lib.Pipeline.Value

set_option maxRecDepth 16384

noncomputable section

namespace Cert.Kernel.Gen

open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The windows' block indices at point t, decided over the grid: the table's block is block (0, 0) at every point;
    the two lists' blocks and the result's row block are block t. -/
theorem block_index : ∀ t : Fin cfg0.N, win0_0.index t (0 : Fin 2) = 0 ∧ win0_0.index t (1 : Fin 2) = 0
    ∧ win0_1.index t (0 : Fin 1) = t.val ∧ win0_2.index t (0 : Fin 1) = t.val
    ∧ win0_3.index t (0 : Fin 2) = t.val ∧ win0_3.index t (1 : Fin 2) = 0 :=
  (by decide +kernel : ∀ t : Fin grid0.N, _)

/-- A grid point is below 3125. -/
theorem point_lt (t : Fin cfg0.N) : t.val < 3125 := lt_of_lt_of_eq t.isLt N_0

/-- Word r of block t of a list is a word of the list. -/
theorem word_lt (t : Fin cfg0.N) (r : Fin 256) : 256 * t.val + r.val < 800000 := by
  have := point_lt t
  have := r.isLt
  omega

/-- The table window's block at any point is the whole table. -/
theorem iblk0_eq (c : Dev nD) (t : Fin cfg0.N) :
    (iblk m c 0 t : Vec F S50000x64 .f32) = (V m c main_arg0 : Vec F S50000x64 .f32) := by
  obtain ⟨e0, e1, -⟩ := block_index t
  funext y
  unfold iblk
  rw [View.read_apply]
  show V m c main_arg0 _ = V m c main_arg0 y
  congr 1
  funext a
  apply Fin.ext
  match a with
  | ⟨0, _⟩ => show win0_0.index t (0 : Fin 2) * 50000 + 1 * (y 0).val = (y 0).val; rw [e0]; omega
  | ⟨1, _⟩ => show win0_0.index t (1 : Fin 2) * 64 + 1 * (y 1).val = (y 1).val; rw [e1]; omega

/-- Word r of the `src` window's block at point t is word 256t + r of `src`. -/
theorem iblk1_apply (c : Dev nD) (t : Fin cfg0.N) (r : Fin 256) :
    (iblk m c 1 t : IVec S256 32) (ix1 r)
      = (V m c main_arg1 : IVec S800000 32) (ix1 (⟨256 * t.val + r.val, word_lt t r⟩ : Fin 800000)) := by
  obtain ⟨-, -, e, -⟩ := block_index t
  unfold iblk
  rw [View.read_apply]
  show V m c main_arg1 _ = V m c main_arg1 _
  congr 1
  funext a
  apply Fin.ext
  match a with
  | ⟨0, _⟩ => show win0_1.index t (0 : Fin 1) * 256 + 1 * r.val = 256 * t.val + r.val; rw [e]; omega

/-- Word r of the `dst` window's block at point t is word 256t + r of `dst`. -/
theorem iblk2_apply (c : Dev nD) (t : Fin cfg0.N) (r : Fin 256) :
    (iblk m c 2 t : IVec S256 32) (ix1 r)
      = (V m c main_arg2 : IVec S800000 32) (ix1 (⟨256 * t.val + r.val, word_lt t r⟩ : Fin 800000)) := by
  obtain ⟨-, -, -, e, -⟩ := block_index t
  unfold iblk
  rw [View.read_apply]
  show V m c main_arg2 _ = V m c main_arg2 _
  congr 1
  funext a
  apply Fin.ext
  match a with
  | ⟨0, _⟩ => show win0_2.index t (0 : Fin 1) * 256 + 1 * r.val = 256 * t.val + r.val; rw [e]; omega

/-- If every word of `src` is below 50000, so is every word of each of its blocks. -/
theorem block_words_lt (c : Dev nD) (h1 : ∀ i, ((V m c main_arg1 : IVec S800000 32) i).toNat < 50000) (t : Fin cfg0.N) :
    ∀ r, ((iblk m c 1 t : IVec S256 32) r).toNat < 50000 := by
  intro r
  obtain ⟨r, rfl⟩ : ∃ r' : Fin 256, r = ix1 r' := ⟨r 0, eq_ix1 r⟩
  rw [iblk1_apply]
  exact h1 _

/-- The same for `dst`. -/
theorem block_words_lt2 (c : Dev nD) (h2 : ∀ i, ((V m c main_arg2 : IVec S800000 32) i).toNat < 50000) (t : Fin cfg0.N) :
    ∀ r, ((iblk m c 2 t : IVec S256 32) r).toNat < 50000 := by
  intro r
  obtain ⟨r, rfl⟩ : ∃ r' : Fin 256, r = ix1 r' := ⟨r 0, eq_ix1 r⟩
  rw [iblk2_apply]
  exact h2 _

end Cert.Kernel.Gen

end
-- ==== Proof.DataI.lean ====
/-
  The proof data of the one pipeline: what each window's staging buffer holds after the body at a grid point.
  The grid has 3125 points; at point t the table window holds the whole table, the two index windows hold words
  256t … 256t+255 of `src` and `dst`, and the output window ends holding `blockOut` of them: row r of the block is the
  column-by-column product of the table rows that word r of each index block names.
-/
import proofs.«116091_j24240795419355_2_alg».proof.Proof.Gen.KernelIdeal.Frame
import proofs.«116091_j24240795419355_2_alg».proof.Proof.Spec
import Idealize.ShloMosaic.Lib.Pipeline.Frame

set_option maxRecDepth 16384

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EdgeProduct

variable {F : FTy → Type} [FloatOps F]

/-- One block of the result: row r is the product of the table rows that words r of the two index blocks name. -/
def blockOut (x : Vec F S50000x64 .f32) (s d : IVec S256 32) : Vec F S256x64 .f32 :=
  fun y => FloatOps.mulf (x (ix2 (rowOf (s (ix1 (y 0 : Fin 256)))) (y 1 : Fin 64)))
    (x (ix2 (rowOf (d (ix1 (y 0 : Fin 256)))) (y 1 : Fin 64)))

variable (m : (ℓ : Loc nD τ sig) → Buf (Elt F) ℓ)

/-- The proof data on core c: the arrays as the region finds them; after the body at point t the three inputs' buffers
    at their blocks and the output's at `blockOut` of them; the invariant is the scratch block at any contents and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = blockOut (iblk m c 0 t) (iblk m c 1 t) (iblk m c 2 t) := by dsimp only [dats]

end Cert.KernelIdeal.Gen

end
-- ==== Proof.WordsI.lean ====
/-
  The input windows' blocks as pieces of the argument arrays. The grid has 3125 points. At point t the table window's
  block is the whole [50000, 64] table, and the blocks of the two index windows are words 256t … 256t + 255 of `src` and
  of `dst`: a block's coordinate on an axis is the window's block index there times the block's extent, plus the
  coordinate inside the block, and the block indices are 0, 0 for the table and t for the two lists (decided over the
  grid). So a bound that holds for every word of a list holds for every word of each of its blocks.
-/
import proofs.«116091_j24240795419355_2_alg».proof.Proof.DataI
import proofs.«116091_j24240795419355_2_alg».proof.Proof.Gen.KernelIdeal.Frame
import proofs.«116091_j24240795419355_2_alg».proof.Proof.Gen.KernelIdeal.Points
import Idealize.ShloMosaic.Lib.Pipeline.Value

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The windows' block indices at point t, decided over the grid: the table's block is block (0, 0) at every point;
    the two lists' blocks and the result's row block are block t. -/
theorem block_index : ∀ t : Fin cfg0.N, win0_0.index t (0 : Fin 2) = 0 ∧ win0_0.index t (1 : Fin 2) = 0
    ∧ win0_1.index t (0 : Fin 1) = t.val ∧ win0_2.index t (0 : Fin 1) = t.val
    ∧ win0_3.index t (0 : Fin 2) = t.val ∧ win0_3.index t (1 : Fin 2) = 0 :=
  (by decide +kernel : ∀ t : Fin grid0.N, _)

/-- A grid point is below 3125. -/
theorem point_lt (t : Fin cfg0.N) : t.val < 3125 := lt_of_lt_of_eq t.isLt N_0

/-- Word r of block t of a list is a word of the list. -/
theorem word_lt (t : Fin cfg0.N) (r : Fin 256) : 256 * t.val + r.val < 800000 := by
  have := point_lt t
  have := r.isLt
  omega

/-- The table window's block at any point is the whole table. -/
theorem iblk0_eq (c : Dev nD) (t : Fin cfg0.N) :
    (iblk m c 0 t : Vec F S50000x64 .f32) = (V m c main_arg0 : Vec F S50000x64 .f32) := by
  obtain ⟨e0, e1, -⟩ := block_index t
  funext y
  unfold iblk
  rw [View.read_apply]
  show V m c main_arg0 _ = V m c main_arg0 y
  congr 1
  funext a
  apply Fin.ext
  match a with
  | ⟨0, _⟩ => show win0_0.index t (0 : Fin 2) * 50000 + 1 * (y 0).val = (y 0).val; rw [e0]; omega
  | ⟨1, _⟩ => show win0_0.index t (1 : Fin 2) * 64 + 1 * (y 1).val = (y 1).val; rw [e1]; omega

/-- Word r of the `src` window's block at point t is word 256t + r of `src`. -/
theorem iblk1_apply (c : Dev nD) (t : Fin cfg0.N) (r : Fin 256) :
    (iblk m c 1 t : IVec S256 32) (ix1 r)
      = (V m c main_arg1 : IVec S800000 32) (ix1 (⟨256 * t.val + r.val, word_lt t r⟩ : Fin 800000)) := by
  obtain ⟨-, -, e, -⟩ := block_index t
  unfold iblk
  rw [View.read_apply]
  show V m c main_arg1 _ = V m c main_arg1 _
  congr 1
  funext a
  apply Fin.ext
  match a with
  | ⟨0, _⟩ => show win0_1.index t (0 : Fin 1) * 256 + 1 * r.val = 256 * t.val + r.val; rw [e]; omega

/-- Word r of the `dst` window's block at point t is word 256t + r of `dst`. -/
theorem iblk2_apply (c : Dev nD) (t : Fin cfg0.N) (r : Fin 256) :
    (iblk m c 2 t : IVec S256 32) (ix1 r)
      = (V m c main_arg2 : IVec S800000 32) (ix1 (⟨256 * t.val + r.val, word_lt t r⟩ : Fin 800000)) := by
  obtain ⟨-, -, -, e, -⟩ := block_index t
  unfold iblk
  rw [View.read_apply]
  show V m c main_arg2 _ = V m c main_arg2 _
  congr 1
  funext a
  apply Fin.ext
  match a with
  | ⟨0, _⟩ => show win0_2.index t (0 : Fin 1) * 256 + 1 * r.val = 256 * t.val + r.val; rw [e]; omega

/-- If every word of `src` is below 50000, so is every word of each of its blocks. -/
theorem block_words_lt (c : Dev nD) (h1 : ∀ i, ((V m c main_arg1 : IVec S800000 32) i).toNat < 50000) (t : Fin cfg0.N) :
    ∀ r, ((iblk m c 1 t : IVec S256 32) r).toNat < 50000 := by
  intro r
  obtain ⟨r, rfl⟩ : ∃ r' : Fin 256, r = ix1 r' := ⟨r 0, eq_ix1 r⟩
  rw [iblk1_apply]
  exact h1 _

/-- The same for `dst`. -/
theorem block_words_lt2 (c : Dev nD) (h2 : ∀ i, ((V m c main_arg2 : IVec S800000 32) i).toNat < 50000) (t : Fin cfg0.N) :
    ∀ r, ((iblk m c 2 t : IVec S256 32) r).toNat < 50000 := by
  intro r
  obtain ⟨r, rfl⟩ : ∃ r' : Fin 256, r = ix1 r' := ⟨r 0, eq_ix1 r⟩
  rw [iblk2_apply]
  exact h2 _

end Cert.KernelIdeal.Gen

end
-- ==== Proof.BodyB.lean ====
/-
  The kernel body and the frame. At each of the 3125 grid points the body walks 32 groups of 8 edges: for edge 8k+j of
  the block it reads the two row numbers s, d from the index blocks, loads rows s and d of the table, multiplies them
  column by column into row j of an 8-row scratch block, and after the eighth row copies the scratch block to rows
  8k … 8k+7 of the output block. A load of row s stays inside the table exactly when s < 50000, which is what the
  body is run under (`BlocksOK`). The loop is taken by the invariant "rows below 8k of the output block are final"
  (`tripInv`); one trip's eight stores cover the scratch block, so what is copied out does not depend on what the
  scratch held before, and it lands on rows no earlier trip wrote. From the body's triple: the proof data's body
  obligation, the run, and the frame (the program ends, nothing faults, the arguments are unchanged).
-/
import proofs.«116091_j24240795419355_2_alg».proof.Proof.Gen.Kernel.Frame
import proofs.«116091_j24240795419355_2_alg».proof.Proof.Gen.Kernel.Skeleton
import proofs.«116091_j24240795419355_2_alg».proof.Proof.Gen.Kernel.Loops
import proofs.«116091_j24240795419355_2_alg».proof.Proof.DataB
import Idealize.ShloMosaic.Lib.Pipeline.Frame
import Idealize.ShloMosaic.Lib.Exec.Geometry
import Idealize.ShloMosaic.Lib.WritesUnit
import Idealize.ShloMosaic.Lib.WholeRead

set_option maxRecDepth 16384

noncomputable section

namespace Cert.Kernel.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EdgeProduct

variable {F : FTy → Type} [FloatOps F]

local notation "𝕄" => MT nD τ sig Unit (Elt F) ℕ (UR sig nD τ) ℕ

/-- A word below 50000, read as a row offset of the table, leaves room for one row of 64. -/
theorem row_fits (w : BitVec 32) (h : w.toNat < 50000) :
    ∀ a, (![(Scalar.indexCast w).toNat, 0] : Fin 2 → ℕ) a + S1x64.size a ≤ S50000x64.size a := by
  intro a
  have e : (Scalar.indexCast w).toNat = w.toNat := rfl
  fin_cases a <;> simp [e, S1x64, S50000x64] <;> omega

/-- Any word loaded from a whole index block whose words are all below 50000 is below 50000. -/
theorem loaded_word_lt {arg : Memref sig .tc .smem S256 .i32} (harg : arg.IsWhole) (s0 : IVec S256 32) (hs : ∀ r, (s0 r).toNat < 50000)
    (B : LoadRect S256) (x : B.shape.Idx) : (arg.view.readAt (Elt F) B (harg.unread s0) x).toNat < 50000 := by
  rw [harg.readAt_unread]; exact hs _

/-- The one-word load at offset n of a whole index block reads word n. -/
theorem word_eq {arg : Memref sig .tc .smem S256 .i32} (harg : arg.IsWhole) (s0 : IVec S256 32) (n : ℕ) (hn : n < 256)
    (woff : Fin 1 → ℕ) (hwoff : woff = ![n]) (winb : ∀ a, woff a + S1.size a ≤ S256.size a)
    (i1 : (Rect.unit (s := S256) woff S1.size winb).toLoadRect.shape.Idx) :
    arg.view.readAt (Elt F) (Rect.unit (s := S256) woff S1.size winb).toLoadRect (harg.unread s0) i1 = s0 (ix1 (⟨n, hn⟩ : Fin 256)) := by
  subst hwoff
  rw [harg.readAt_unread]
  congr 1
  funext a
  apply Fin.ext
  fin_cases a
  show n + 1 * (i1 (0 : Fin 1)).val = n
  have : (i1 (0 : Fin 1)).val < 1 := (i1 (0 : Fin 1)).isLt
  omega

/-- Rows 8k … 8k+7 of the output block. -/
def tripRows (x0 : Vec F S50000x64 .f32) (s0 d0 : IVec S256 32) (k : ℕ) (hk : k < 32) : Vec F S8x64 .f32 :=
  fun z => blockOut x0 s0 d0 (ix2 (⟨8 * k + (z 0).val, by have := idx2_lt0 z; omega⟩ : Fin 256) (z 1 : Fin 64))

/-- The product of the two table rows that two loaded words name is the row of the output block those words stand for:
    the payload of the store into row j of the scratch block is row 8k + j of the output block. -/
theorem piece_ok {arg1 : Memref sig .tc .vmem S50000x64 .f32} (harg1 : arg1.IsWhole) (x0 : Vec F S50000x64 .f32) (s0 d0 : IVec S256 32)
    (hs : ∀ r, (s0 r).toNat < 50000) (hd : ∀ r, (d0 r).toNat < 50000) (k : ℕ) (hk : k < 32) (j : ℕ) (hj : j < 8)
    (ws wd : BitVec 32) (hws : ws = s0 (ix1 (⟨8 * k + j, by omega⟩ : Fin 256))) (hwd : wd = d0 (ix1 (⟨8 * k + j, by omega⟩ : Fin 256)))
    (offs offd : Fin 2 → ℕ) (hoffs : offs = ![ws.toNat, 0]) (hoffd : offd = ![wd.toNat, 0])
    (inbs : ∀ a, offs a + S1x64.size a ≤ S50000x64.size a) (inbd : ∀ a, offd a + S1x64.size a ≤ S50000x64.size a)
    (rinb : ∀ a, (![j, 0] : Fin 2 → ℕ) a + S1x64.size a ≤ S8x64.size a)
    (P : FVec F S1x64 .f32)
    (hP : P = mulf (arg1.view.readAt (Elt F) (Rect.unit (s := S50000x64) offs S1x64.size inbs).toLoadRect (harg1.unread x0))
        (arg1.view.readAt (Elt F) (Rect.unit (s := S50000x64) offd S1x64.size inbd).toLoadRect (harg1.unread x0)))
    (x : (Rect.unit (s := S8x64) ![j, 0] S1x64.size rinb).shape.Idx) :
    P x = tripRows x0 s0 d0 k hk ((Rect.unit (s := S8x64) ![j, 0] S1x64.size rinb).emb x) := by
  subst hP
  subst hoffs hoffd
  have hx0 : (x (0 : Fin 2)).val < 1 := (x (0 : Fin 2)).isLt
  have hx1 : (x (1 : Fin 2)).val < 64 := (x (1 : Fin 2)).isLt
  have hsw : ws.toNat < 50000 := hws ▸ hs _
  have hdw : wd.toNat < 50000 := hwd ▸ hd _
  unfold mulf
  beta_reduce
  rw [harg1.readAt_unread, harg1.readAt_unread]
  unfold tripRows blockOut
  have e0 : ((Rect.unit (s := S8x64) ![j, 0] S1x64.size rinb).emb x (0 : Fin 2)).val = j + 1 * (x (0 : Fin 2)).val := rfl
  have e1 : ((Rect.unit (s := S8x64) ![j, 0] S1x64.size rinb).emb x (1 : Fin 2)).val = 0 + 1 * (x (1 : Fin 2)).val := rfl
  have es : s0 (ix1 (⟨8 * k + ((Rect.unit (s := S8x64) ![j, 0] S1x64.size rinb).emb x (0 : Fin 2)).val, by omega⟩ : Fin 256)) = ws := by
    rw [hws]; congr 2; apply Fin.ext; show 8 * k + _ = 8 * k + j; omega
  have ed : d0 (ix1 (⟨8 * k + ((Rect.unit (s := S8x64) ![j, 0] S1x64.size rinb).emb x (0 : Fin 2)).val, by omega⟩ : Fin 256)) = wd := by
    rw [hwd]; congr 2; apply Fin.ext; show 8 * k + _ = 8 * k + j; omega
  show _ = FloatOps.mulf (x0 (ix2 (rowOf (s0 (ix1 (⟨8 * k + ((Rect.unit (s := S8x64) ![j, 0] S1x64.size rinb).emb x (0 : Fin 2)).val, _⟩ : Fin 256)))) _))
      (x0 (ix2 (rowOf (d0 (ix1 (⟨8 * k + ((Rect.unit (s := S8x64) ![j, 0] S1x64.size rinb).emb x (0 : Fin 2)).val, _⟩ : Fin 256)))) _))
  rw [es, ed]
  congr 2
  · funext a
    apply Fin.ext
    fin_cases a
    · show ws.toNat + 1 * (x (0 : Fin 2)).val = (rowOf ws).val
      rw [rowOf_val ws hsw]; omega
    · show 0 + 1 * (x (1 : Fin 2)).val = 0 + 1 * (x (1 : Fin 2)).val
      rfl
  · funext a
    apply Fin.ext
    fin_cases a
    · show wd.toNat + 1 * (x (0 : Fin 2)).val = (rowOf wd).val
      rw [rowOf_val wd hdw]; omega
    · show 0 + 1 * (x (1 : Fin 2)).val = 0 + 1 * (x (1 : Fin 2)).val
      rfl

/-- The eight one-row stores cover the scratch block, whatever they store. -/
theorem cover8 (p7 : (Rect.unit (s := S8x64) ![7, 0] S1x64.size inb_S8x64_S1x64_7_0).shape.Idx → Elt F .f32)
    (p6 : (Rect.unit (s := S8x64) ![6, 0] S1x64.size inb_S8x64_S1x64_6_0).shape.Idx → Elt F .f32)
    (p5 : (Rect.unit (s := S8x64) ![5, 0] S1x64.size inb_S8x64_S1x64_5_0).shape.Idx → Elt F .f32)
    (p4 : (Rect.unit (s := S8x64) ![4, 0] S1x64.size inb_S8x64_S1x64_4_0).shape.Idx → Elt F .f32)
    (p3 : (Rect.unit (s := S8x64) ![3, 0] S1x64.size inb_S8x64_S1x64_3_0).shape.Idx → Elt F .f32)
    (p2 : (Rect.unit (s := S8x64) ![2, 0] S1x64.size inb_S8x64_S1x64_2_0).shape.Idx → Elt F .f32)
    (p1 : (Rect.unit (s := S8x64) ![1, 0] S1x64.size inb_S8x64_S1x64_1_0).shape.Idx → Elt F .f32)
    (p0 : (Rect.unit (s := S8x64) ![0, 0] S1x64.size inb_S8x64_S1x64_0_0).shape.Idx → Elt F .f32) (y : S8x64.Idx) :
    ∃ pc ∈ ([⟨_, p7⟩, ⟨_, p6⟩, ⟨_, p5⟩, ⟨_, p4⟩, ⟨_, p3⟩, ⟨_, p2⟩, ⟨_, p1⟩, ⟨_, p0⟩] : List (View.Piece (Elt F) S8x64 .f32)), y ∈ pc.1.set :=
  View.cover_of_tiled (s := S8x64) _ S1x64.size (by rfl) y

/-- Before trip k: the three inputs' buffers as found, rows below 8k of the output block final, the scratch block at
    any contents. -/
def tripInv (c : Dev nD) (arg1 : Memref sig .tc .vmem S50000x64 .f32) (harg1 : arg1.IsWhole) (arg2 : Memref sig .tc .smem S256 .i32) (harg2 : arg2.IsWhole)
    (arg3 : Memref sig .tc .smem S256 .i32) (harg3 : arg3.IsWhole) (arg4 : Memref sig .tc .vmem S256x64 .f32) (arg5 : Memref sig .tc .vmem S8x64 .f32)
    (x0 : Vec F S50000x64 .f32) (s0 d0 : IVec S256 32) (k : ℕ) : sProp 𝕄 :=
  iprop((arg1.view.loc (c : Thread nD τ) ↦[arg1.view.set]{fullShare} harg1.unread x0)
    ∗ (arg2.view.loc (c : Thread nD τ) ↦[arg2.view.set]{fullShare} harg2.unread s0)
    ∗ (arg3.view.loc (c : Thread nD τ) ↦[arg3.view.set]{fullShare} harg3.unread d0)
    ∗ (∃ f4, (arg4.view.loc (c : Thread nD τ) ↦[arg4.view.set]{fullShare} f4)
        ∗ ⌜∀ y : S256x64.Idx, (y 0).val < 8 * k → arg4.view.read (Elt F) f4 y = blockOut x0 s0 d0 y⌝)
    ∗ (∃ f5, arg5.view.loc (c : Thread nD τ) ↦[arg5.view.set]{fullShare} f5))

/-- The loop runs 32 trips. -/
theorem trips_eq : Scf.trips k0_t1_loop.lb k0_t1_loop.ub k0_t1_loop.st = 32 := by decide

set_option maxHeartbeats 8000000 in
/-- The kernel body on whole staging memrefs — the table's at `x0`, the index blocks' at `s0` and `d0`, every word of
    which is below 50000, the output's and the scratch's at anything — runs to the continuation holding the inputs as
    they were and the output block at `blockOut x0 s0 d0`. The loop goes by the invariant `tripInv`: trip k stores rows
    8k … 8k+7 (each the product of the two table rows its two words name, through the scratch block and back), and
    leaves the rows below untouched. -/
theorem sound_kernel (c : Dev nD) (E : Set ℕ) (i : grid0.Coords)
    (arg1 : Memref sig .tc .vmem S50000x64 .f32) (harg1 : arg1.IsWhole) (arg2 : Memref sig .tc .smem S256 .i32) (harg2 : arg2.IsWhole)
    (arg3 : Memref sig .tc .smem S256 .i32) (harg3 : arg3.IsWhole) (arg4 : Memref sig .tc .vmem S256x64 .f32) (harg4 : arg4.IsWhole)
    (arg5 : Memref sig .tc .vmem S8x64 .f32) (harg5 : arg5.IsWhole)
    (x0 : Vec F S50000x64 .f32) (s0 d0 : IVec S256 32)
    (hs : ∀ r, (s0 r).toNat < 50000) (hd : ∀ r, (d0 r).toNat < 50000) (K : PUnit → sProp 𝕄) :
    iprop(owns (c : Thread nD τ) arg1 fullShare x0 ∗ owns (c : Thread nD τ) arg2 fullShare s0 ∗ owns (c : Thread nD τ) arg3 fullShare d0
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare s0 ∗ owns (c : Thread nD τ) arg3 fullShare d0
            ∗ owns (c : Thread nD τ) arg4 fullShare (blockOut x0 s0 d0) ∗ (∃ d, owns (c : Thread nD τ) arg5 fullShare d)) -∗ K ⟨⟩))
      ⊢ wp frame (wpE (defs₀ (F := F)) Variants.none c none) E (cc0__gather_mul_kernel i arg1 harg1 arg2 harg2 arg3 harg3 arg4 harg4 arg5 harg5) K := by
  simp only [cc0__gather_mul_kernel_eq_skeleton]; unfold cc0__gather_mul_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_for (fun k _ => tripInv c arg1 harg1 arg2 harg2 arg3 harg3 arg4 arg5 x0 s0 d0 k) $$ [H1 H2 H3 H4 H5]
  · intro k acc
    unfold tripInv
    iintro ⟨H1, H2, H3, ⟨%f4, H4, %h4⟩, ⟨%f5, H5⟩⟩
    sl_exec (disch := first
      | (guard_target = k0_chk1 _; exact row_fits _ (loaded_word_lt harg2 s0 hs _ _))
      | (guard_target = k0_chk2 _; exact row_fits _ (loaded_word_lt harg3 d0 hd _ _))
      | (guard_target = k0_chk3 _; exact row_fits _ (loaded_word_lt harg2 s0 hs _ _))
      | (guard_target = k0_chk4 _; exact row_fits _ (loaded_word_lt harg3 d0 hd _ _))
      | (guard_target = k0_chk5 _; exact row_fits _ (loaded_word_lt harg2 s0 hs _ _))
      | (guard_target = k0_chk6 _; exact row_fits _ (loaded_word_lt harg3 d0 hd _ _))
      | (guard_target = k0_chk7 _; exact row_fits _ (loaded_word_lt harg2 s0 hs _ _))
      | (guard_target = k0_chk8 _; exact row_fits _ (loaded_word_lt harg3 d0 hd _ _))
      | (guard_target = k0_chk9 _; exact row_fits _ (loaded_word_lt harg2 s0 hs _ _))
      | (guard_target = k0_chk10 _; exact row_fits _ (loaded_word_lt harg3 d0 hd _ _))
      | (guard_target = k0_chk11 _; exact row_fits _ (loaded_word_lt harg2 s0 hs _ _))
      | (guard_target = k0_chk12 _; exact row_fits _ (loaded_word_lt harg3 d0 hd _ _))
      | (guard_target = k0_chk13 _; exact row_fits _ (loaded_word_lt harg2 s0 hs _ _))
      | (guard_target = k0_chk14 _; exact row_fits _ (loaded_word_lt harg3 d0 hd _ _))
      | (guard_target = k0_chk15 _; exact row_fits _ (loaded_word_lt harg2 s0 hs _ _))
      | (guard_target = k0_chk16 _; exact row_fits _ (loaded_word_lt harg3 d0 hd _ _)))
    sl_step
    isplitl [H1]; · iexact H1
    isplitl [H2]; · iexact H2
    isplitl [H3]; · iexact H3
    isplitl [H4]
    · iexists _; isplitl [H4]; · iexact H4
      ipureintro
      intro y hy
      have hk : k.val < 32 := Nat.lt_of_lt_of_le k.isLt k0_t1_abs.2.1
      refine (View.read_writes_cons_rows (size := S8x64.size) (W := 8) (o := 8 * k.val) arg4.view f4 _ _ [] y (k0_off25_eq k) rfl rfl).trans ?_
      by_cases h : 8 * k.val ≤ (y (0 : Fin 2)).val ∧ (y (0 : Fin 2)).val < 8 * k.val + 8
      · refine (dif_pos h).trans ?_
        delta sound_kernel.sl.v116
        refine (congrFun (View.readCov_eq_canon' _ _ _) _).trans ?_
        delta sound_kernel.sl.H5_8
        refine (View.canon_apply_of_pieces (tripRows x0 s0 d0 k.val hk) _ ?hG _ (cover8 _ _ _ _ _ _ _ _ _)).trans ?hfin
        case hfin =>
          unfold tripRows
          congr 1
          funext a
          apply Fin.ext
          fin_cases a
          · show 8 * k.val + (0 + 1 * ((y (0 : Fin 2)).val - 8 * k.val)) = (y (0 : Fin 2)).val
            omega
          · show 0 + 1 * ((y (1 : Fin 2)).val - 0) = (y (1 : Fin 2)).val
            omega
        case hG =>
          intro p hp
          simp only [List.mem_cons, List.mem_singleton, List.not_mem_nil, or_false] at hp
          rcases hp with rfl | rfl | rfl | rfl | rfl | rfl | rfl | rfl
          · intro x
            exact piece_ok harg1 x0 s0 d0 hs hd k.val hk 7 (by omega) _ _
              (word_eq harg2 s0 (8 * k.val + 7) (by omega) _ (k0_off22_eq k) _ _)
              (word_eq harg3 d0 (8 * k.val + 7) (by omega) _ (k0_off22_eq k) _ _) _ _ rfl rfl _ _ inb_S8x64_S1x64_7_0 _ (shapeCast_self _ _) x
          · intro x
            exact piece_ok harg1 x0 s0 d0 hs hd k.val hk 6 (by omega) _ _
              (word_eq harg2 s0 (8 * k.val + 6) (by omega) _ (k0_off19_eq k) _ _)
              (word_eq harg3 d0 (8 * k.val + 6) (by omega) _ (k0_off19_eq k) _ _) _ _ rfl rfl _ _ inb_S8x64_S1x64_6_0 _ (shapeCast_self _ _) x
          · intro x
            exact piece_ok harg1 x0 s0 d0 hs hd k.val hk 5 (by omega) _ _
              (word_eq harg2 s0 (8 * k.val + 5) (by omega) _ (k0_off16_eq k) _ _)
              (word_eq harg3 d0 (8 * k.val + 5) (by omega) _ (k0_off16_eq k) _ _) _ _ rfl rfl _ _ inb_S8x64_S1x64_5_0 _ (shapeCast_self _ _) x
          · intro x
            exact piece_ok harg1 x0 s0 d0 hs hd k.val hk 4 (by omega) _ _
              (word_eq harg2 s0 (8 * k.val + 4) (by omega) _ (k0_off13_eq k) _ _)
              (word_eq harg3 d0 (8 * k.val + 4) (by omega) _ (k0_off13_eq k) _ _) _ _ rfl rfl _ _ inb_S8x64_S1x64_4_0 _ (shapeCast_self _ _) x
          · intro x
            exact piece_ok harg1 x0 s0 d0 hs hd k.val hk 3 (by omega) _ _
              (word_eq harg2 s0 (8 * k.val + 3) (by omega) _ (k0_off10_eq k) _ _)
              (word_eq harg3 d0 (8 * k.val + 3) (by omega) _ (k0_off10_eq k) _ _) _ _ rfl rfl _ _ inb_S8x64_S1x64_3_0 _ (shapeCast_self _ _) x
          · intro x
            exact piece_ok harg1 x0 s0 d0 hs hd k.val hk 2 (by omega) _ _
              (word_eq harg2 s0 (8 * k.val + 2) (by omega) _ (k0_off7_eq k) _ _)
              (word_eq harg3 d0 (8 * k.val + 2) (by omega) _ (k0_off7_eq k) _ _) _ _ rfl rfl _ _ inb_S8x64_S1x64_2_0 _ (shapeCast_self _ _) x
          · intro x
            exact piece_ok harg1 x0 s0 d0 hs hd k.val hk 1 (by omega) _ _
              (word_eq harg2 s0 (8 * k.val + 1) (by omega) _ (k0_off4_eq k) _ _)
              (word_eq harg3 d0 (8 * k.val + 1) (by omega) _ (k0_off4_eq k) _ _) _ _ rfl rfl _ _ inb_S8x64_S1x64_1_0 _ (shapeCast_self _ _) x
          · intro x
            exact piece_ok harg1 x0 s0 d0 hs hd k.val hk 0 (by omega) _ _
              (word_eq harg2 s0 (8 * k.val + 0) (by omega) _ (k0_off1_eq k) _ _)
              (word_eq harg3 d0 (8 * k.val + 0) (by omega) _ (k0_off1_eq k) _ _) _ _ rfl rfl _ _ inb_S8x64_S1x64_0_0 _ (shapeCast_self _ _) x
      · refine (dif_neg h).trans ?_
        exact h4 y (by omega)
    iexists _; iexact H5
  · unfold tripInv
    isplitl [H1]; · iexact H1
    isplitl [H2]; · iexact H2
    isplitl [H3]; · iexact H3
    isplitl [H4]
    · iexists _; isplitl [H4]; · iexact H4
      ipureintro; intro y hy; exact absurd hy (by omega)
    iexists _; iexact H5
  · iintro %acc HI
    unfold tripInv
    icases HI with ⟨H1, H2, H3, ⟨%g4, H4, %h4⟩, ⟨%g5, H5⟩⟩
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr
      · ipureintro; funext y; exact h4 y (by rw [trips_eq]; have := idx2_lt0 y; omega)
      iexact H4
    iexists (arg5.view.read (Elt F) g5), g5; isplitr
    · ipureintro; rfl
    iexact H5

variable (m : (ℓ : Loc nD τ sig) → Buf (Elt F) ℓ) (ρ : Dev nD → PrngReg)

/-- What the body needs of the launch memory: at every point, every word of the two index blocks is below 50000, so
    that the row it names lies inside the table. -/
def BlocksOK : Prop :=
  ∀ (c : Dev nD) (t : Fin cfg0.N), (∀ r, (iblk m c 1 t r).toNat < 50000) ∧ (∀ r, (iblk m c 2 t r).toNat < 50000)

/-- The scratch operand: a whole scoped buffer of the kernel's own. -/
abbrev scM : Memref sig .tc .vmem S8x64 .f32 := Memref.whole cc0_scratch0

/-- The pipeline's invariant with the scratch block as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, the index blocks' words are in range, so
    `sound_kernel` applies; the generator register and the core's `owes` pass through unread, the scratch block comes
    back at some contents. -/
theorem sound_body (hH : BlocksOK m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rewrite [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, PhiA0_eq]
  iintro ⟨⟨HS, Hr⟩, Ho, ⟨%d0, H0⟩, ⟨%d1, H1⟩, ⟨%d2, H2⟩, ⟨%d3, H3⟩⟩
  iapply (sound_kernel c Set.univ (grid0.coords t) _ _ _ _ _ _ _ _ _ _ (iblk m c 0 t) (iblk m c 1 t) (iblk m c 2 t) (hH c t).1 (hH c t).2 _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hr]
  · isplitl [HS]; · iexact HS
    iexact Hr
  isplitl [Ho]; · iexact Ho
  isplitl [H0]; · iexact H0
  isplitl [H1]; · iexact H1
  isplitl [H2]; · iexact H2
  iexact H3

/-- The library's body obligation, at every point. -/
theorem body_obligation (hH : BlocksOK m) (c : Dev nD) :
    BodyObligation (dats (F := F) m 0 c) (defs₀ (F := F)) Variants.none () Set.univ := fun t => by
  rw [bigSep_W0, bigSep_W0]
  exact sound_body m hH c t

/-! ## The run and the frame -/

set_option backward.isDefEq.respectTransparency.types false in
/-- For any memory whose index words are in range, from zero counters: every weakly fair execution of @main terminates,
    and every final state has every array of the pipeline at what the library computes from the proof data. -/
theorem run_main (hH : BlocksOK m) : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m hH c).loose) (hshare := fun c => (dats m 0 c).share_full fun _ => rfl)
    (howed := fun _ _ => rfl) (V := V m) (hmain := hmain m Variants.none) (hA := fun _ _ => rfl) (hΦ := fun _ _ => rfl)

/-- The frame: the program runs to its end, nothing faults, and the three argument arrays end unchanged. -/
theorem frame (hH : BlocksOK m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hH)

end Cert.Kernel.Gen

end
-- ==== Proof.BodyI.lean ====
/-
  The kernel body and the frame. At each of the 3125 grid points the body walks 32 groups of 8 edges: for edge 8k+j of
  the block it reads the two row numbers s, d from the index blocks, loads rows s and d of the table, multiplies them
  column by column into row j of an 8-row scratch block, and after the eighth row copies the scratch block to rows
  8k … 8k+7 of the output block. A load of row s stays inside the table exactly when s < 50000, which is what the
  body is run under (`BlocksOK`). The loop is taken by the invariant "rows below 8k of the output block are final"
  (`tripInv`); one trip's eight stores cover the scratch block, so what is copied out does not depend on what the
  scratch held before, and it lands on rows no earlier trip wrote. From the body's triple: the proof data's body
  obligation, the run, and the frame (the program ends, nothing faults, the arguments are unchanged).
-/
import proofs.«116091_j24240795419355_2_alg».proof.Proof.Gen.KernelIdeal.Frame
import proofs.«116091_j24240795419355_2_alg».proof.Proof.Gen.KernelIdeal.Skeleton
import proofs.«116091_j24240795419355_2_alg».proof.Proof.Gen.KernelIdeal.Loops
import proofs.«116091_j24240795419355_2_alg».proof.Proof.DataI
import Idealize.ShloMosaic.Lib.Pipeline.Frame
import Idealize.ShloMosaic.Lib.Exec.Geometry
import Idealize.ShloMosaic.Lib.WritesUnit
import Idealize.ShloMosaic.Lib.WholeRead

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EdgeProduct

variable {F : FTy → Type} [FloatOps F]

local notation "𝕄" => MT nD τ sig Unit (Elt F) ℕ (UR sig nD τ) ℕ

/-- A word below 50000, read as a row offset of the table, leaves room for one row of 64. -/
theorem row_fits (w : BitVec 32) (h : w.toNat < 50000) :
    ∀ a, (![(Scalar.indexCast w).toNat, 0] : Fin 2 → ℕ) a + S1x64.size a ≤ S50000x64.size a := by
  intro a
  have e : (Scalar.indexCast w).toNat = w.toNat := rfl
  fin_cases a <;> simp [e, S1x64, S50000x64] <;> omega

/-- Any word loaded from a whole index block whose words are all below 50000 is below 50000. -/
theorem loaded_word_lt {arg : Memref sig .tc .smem S256 .i32} (harg : arg.IsWhole) (s0 : IVec S256 32) (hs : ∀ r, (s0 r).toNat < 50000)
    (B : LoadRect S256) (x : B.shape.Idx) : (arg.view.readAt (Elt F) B (harg.unread s0) x).toNat < 50000 := by
  rw [harg.readAt_unread]; exact hs _

/-- The one-word load at offset n of a whole index block reads word n. -/
theorem word_eq {arg : Memref sig .tc .smem S256 .i32} (harg : arg.IsWhole) (s0 : IVec S256 32) (n : ℕ) (hn : n < 256)
    (woff : Fin 1 → ℕ) (hwoff : woff = ![n]) (winb : ∀ a, woff a + S1.size a ≤ S256.size a)
    (i1 : (Rect.unit (s := S256) woff S1.size winb).toLoadRect.shape.Idx) :
    arg.view.readAt (Elt F) (Rect.unit (s := S256) woff S1.size winb).toLoadRect (harg.unread s0) i1 = s0 (ix1 (⟨n, hn⟩ : Fin 256)) := by
  subst hwoff
  rw [harg.readAt_unread]
  congr 1
  funext a
  apply Fin.ext
  fin_cases a
  show n + 1 * (i1 (0 : Fin 1)).val = n
  have : (i1 (0 : Fin 1)).val < 1 := (i1 (0 : Fin 1)).isLt
  omega

/-- Rows 8k … 8k+7 of the output block. -/
def tripRows (x0 : Vec F S50000x64 .f32) (s0 d0 : IVec S256 32) (k : ℕ) (hk : k < 32) : Vec F S8x64 .f32 :=
  fun z => blockOut x0 s0 d0 (ix2 (⟨8 * k + (z 0).val, by have := idx2_lt0 z; omega⟩ : Fin 256) (z 1 : Fin 64))

/-- The product of the two table rows that two loaded words name is the row of the output block those words stand for:
    the payload of the store into row j of the scratch block is row 8k + j of the output block. -/
theorem piece_ok {arg1 : Memref sig .tc .vmem S50000x64 .f32} (harg1 : arg1.IsWhole) (x0 : Vec F S50000x64 .f32) (s0 d0 : IVec S256 32)
    (hs : ∀ r, (s0 r).toNat < 50000) (hd : ∀ r, (d0 r).toNat < 50000) (k : ℕ) (hk : k < 32) (j : ℕ) (hj : j < 8)
    (ws wd : BitVec 32) (hws : ws = s0 (ix1 (⟨8 * k + j, by omega⟩ : Fin 256))) (hwd : wd = d0 (ix1 (⟨8 * k + j, by omega⟩ : Fin 256)))
    (offs offd : Fin 2 → ℕ) (hoffs : offs = ![ws.toNat, 0]) (hoffd : offd = ![wd.toNat, 0])
    (inbs : ∀ a, offs a + S1x64.size a ≤ S50000x64.size a) (inbd : ∀ a, offd a + S1x64.size a ≤ S50000x64.size a)
    (rinb : ∀ a, (![j, 0] : Fin 2 → ℕ) a + S1x64.size a ≤ S8x64.size a)
    (P : FVec F S1x64 .f32)
    (hP : P = mulf (arg1.view.readAt (Elt F) (Rect.unit (s := S50000x64) offs S1x64.size inbs).toLoadRect (harg1.unread x0))
        (arg1.view.readAt (Elt F) (Rect.unit (s := S50000x64) offd S1x64.size inbd).toLoadRect (harg1.unread x0)))
    (x : (Rect.unit (s := S8x64) ![j, 0] S1x64.size rinb).shape.Idx) :
    P x = tripRows x0 s0 d0 k hk ((Rect.unit (s := S8x64) ![j, 0] S1x64.size rinb).emb x) := by
  subst hP
  subst hoffs hoffd
  have hx0 : (x (0 : Fin 2)).val < 1 := (x (0 : Fin 2)).isLt
  have hx1 : (x (1 : Fin 2)).val < 64 := (x (1 : Fin 2)).isLt
  have hsw : ws.toNat < 50000 := hws ▸ hs _
  have hdw : wd.toNat < 50000 := hwd ▸ hd _
  unfold mulf
  beta_reduce
  rw [harg1.readAt_unread, harg1.readAt_unread]
  unfold tripRows blockOut
  have e0 : ((Rect.unit (s := S8x64) ![j, 0] S1x64.size rinb).emb x (0 : Fin 2)).val = j + 1 * (x (0 : Fin 2)).val := rfl
  have e1 : ((Rect.unit (s := S8x64) ![j, 0] S1x64.size rinb).emb x (1 : Fin 2)).val = 0 + 1 * (x (1 : Fin 2)).val := rfl
  have es : s0 (ix1 (⟨8 * k + ((Rect.unit (s := S8x64) ![j, 0] S1x64.size rinb).emb x (0 : Fin 2)).val, by omega⟩ : Fin 256)) = ws := by
    rw [hws]; congr 2; apply Fin.ext; show 8 * k + _ = 8 * k + j; omega
  have ed : d0 (ix1 (⟨8 * k + ((Rect.unit (s := S8x64) ![j, 0] S1x64.size rinb).emb x (0 : Fin 2)).val, by omega⟩ : Fin 256)) = wd := by
    rw [hwd]; congr 2; apply Fin.ext; show 8 * k + _ = 8 * k + j; omega
  show _ = FloatOps.mulf (x0 (ix2 (rowOf (s0 (ix1 (⟨8 * k + ((Rect.unit (s := S8x64) ![j, 0] S1x64.size rinb).emb x (0 : Fin 2)).val, _⟩ : Fin 256)))) _))
      (x0 (ix2 (rowOf (d0 (ix1 (⟨8 * k + ((Rect.unit (s := S8x64) ![j, 0] S1x64.size rinb).emb x (0 : Fin 2)).val, _⟩ : Fin 256)))) _))
  rw [es, ed]
  congr 2
  · funext a
    apply Fin.ext
    fin_cases a
    · show ws.toNat + 1 * (x (0 : Fin 2)).val = (rowOf ws).val
      rw [rowOf_val ws hsw]; omega
    · show 0 + 1 * (x (1 : Fin 2)).val = 0 + 1 * (x (1 : Fin 2)).val
      rfl
  · funext a
    apply Fin.ext
    fin_cases a
    · show wd.toNat + 1 * (x (0 : Fin 2)).val = (rowOf wd).val
      rw [rowOf_val wd hdw]; omega
    · show 0 + 1 * (x (1 : Fin 2)).val = 0 + 1 * (x (1 : Fin 2)).val
      rfl

/-- The eight one-row stores cover the scratch block, whatever they store. -/
theorem cover8 (p7 : (Rect.unit (s := S8x64) ![7, 0] S1x64.size inb_S8x64_S1x64_7_0).shape.Idx → Elt F .f32)
    (p6 : (Rect.unit (s := S8x64) ![6, 0] S1x64.size inb_S8x64_S1x64_6_0).shape.Idx → Elt F .f32)
    (p5 : (Rect.unit (s := S8x64) ![5, 0] S1x64.size inb_S8x64_S1x64_5_0).shape.Idx → Elt F .f32)
    (p4 : (Rect.unit (s := S8x64) ![4, 0] S1x64.size inb_S8x64_S1x64_4_0).shape.Idx → Elt F .f32)
    (p3 : (Rect.unit (s := S8x64) ![3, 0] S1x64.size inb_S8x64_S1x64_3_0).shape.Idx → Elt F .f32)
    (p2 : (Rect.unit (s := S8x64) ![2, 0] S1x64.size inb_S8x64_S1x64_2_0).shape.Idx → Elt F .f32)
    (p1 : (Rect.unit (s := S8x64) ![1, 0] S1x64.size inb_S8x64_S1x64_1_0).shape.Idx → Elt F .f32)
    (p0 : (Rect.unit (s := S8x64) ![0, 0] S1x64.size inb_S8x64_S1x64_0_0).shape.Idx → Elt F .f32) (y : S8x64.Idx) :
    ∃ pc ∈ ([⟨_, p7⟩, ⟨_, p6⟩, ⟨_, p5⟩, ⟨_, p4⟩, ⟨_, p3⟩, ⟨_, p2⟩, ⟨_, p1⟩, ⟨_, p0⟩] : List (View.Piece (Elt F) S8x64 .f32)), y ∈ pc.1.set :=
  View.cover_of_tiled (s := S8x64) _ S1x64.size (by rfl) y

/-- Before trip k: the three inputs' buffers as found, rows below 8k of the output block final, the scratch block at
    any contents. -/
def tripInv (c : Dev nD) (arg1 : Memref sig .tc .vmem S50000x64 .f32) (harg1 : arg1.IsWhole) (arg2 : Memref sig .tc .smem S256 .i32) (harg2 : arg2.IsWhole)
    (arg3 : Memref sig .tc .smem S256 .i32) (harg3 : arg3.IsWhole) (arg4 : Memref sig .tc .vmem S256x64 .f32) (arg5 : Memref sig .tc .vmem S8x64 .f32)
    (x0 : Vec F S50000x64 .f32) (s0 d0 : IVec S256 32) (k : ℕ) : sProp 𝕄 :=
  iprop((arg1.view.loc (c : Thread nD τ) ↦[arg1.view.set]{fullShare} harg1.unread x0)
    ∗ (arg2.view.loc (c : Thread nD τ) ↦[arg2.view.set]{fullShare} harg2.unread s0)
    ∗ (arg3.view.loc (c : Thread nD τ) ↦[arg3.view.set]{fullShare} harg3.unread d0)
    ∗ (∃ f4, (arg4.view.loc (c : Thread nD τ) ↦[arg4.view.set]{fullShare} f4)
        ∗ ⌜∀ y : S256x64.Idx, (y 0).val < 8 * k → arg4.view.read (Elt F) f4 y = blockOut x0 s0 d0 y⌝)
    ∗ (∃ f5, arg5.view.loc (c : Thread nD τ) ↦[arg5.view.set]{fullShare} f5))

/-- The loop runs 32 trips. -/
theorem trips_eq : Scf.trips k0_t1_loop.lb k0_t1_loop.ub k0_t1_loop.st = 32 := by decide

set_option maxHeartbeats 8000000 in
/-- The kernel body on whole staging memrefs — the table's at `x0`, the index blocks' at `s0` and `d0`, every word of
    which is below 50000, the output's and the scratch's at anything — runs to the continuation holding the inputs as
    they were and the output block at `blockOut x0 s0 d0`. The loop goes by the invariant `tripInv`: trip k stores rows
    8k … 8k+7 (each the product of the two table rows its two words name, through the scratch block and back), and
    leaves the rows below untouched. -/
theorem sound_kernel (c : Dev nD) (E : Set ℕ) (i : grid0.Coords)
    (arg1 : Memref sig .tc .vmem S50000x64 .f32) (harg1 : arg1.IsWhole) (arg2 : Memref sig .tc .smem S256 .i32) (harg2 : arg2.IsWhole)
    (arg3 : Memref sig .tc .smem S256 .i32) (harg3 : arg3.IsWhole) (arg4 : Memref sig .tc .vmem S256x64 .f32) (harg4 : arg4.IsWhole)
    (arg5 : Memref sig .tc .vmem S8x64 .f32) (harg5 : arg5.IsWhole)
    (x0 : Vec F S50000x64 .f32) (s0 d0 : IVec S256 32)
    (hs : ∀ r, (s0 r).toNat < 50000) (hd : ∀ r, (d0 r).toNat < 50000) (K : PUnit → sProp 𝕄) :
    iprop(owns (c : Thread nD τ) arg1 fullShare x0 ∗ owns (c : Thread nD τ) arg2 fullShare s0 ∗ owns (c : Thread nD τ) arg3 fullShare d0
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare s0 ∗ owns (c : Thread nD τ) arg3 fullShare d0
            ∗ owns (c : Thread nD τ) arg4 fullShare (blockOut x0 s0 d0) ∗ (∃ d, owns (c : Thread nD τ) arg5 fullShare d)) -∗ K ⟨⟩))
      ⊢ wp frame (wpE (defs₀ (F := F)) Variants.none c none) E (cc0__gather_mul_kernel i arg1 harg1 arg2 harg2 arg3 harg3 arg4 harg4 arg5 harg5) K := by
  simp only [cc0__gather_mul_kernel_eq_skeleton]; unfold cc0__gather_mul_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_for (fun k _ => tripInv c arg1 harg1 arg2 harg2 arg3 harg3 arg4 arg5 x0 s0 d0 k) $$ [H1 H2 H3 H4 H5]
  · intro k acc
    unfold tripInv
    iintro ⟨H1, H2, H3, ⟨%f4, H4, %h4⟩, ⟨%f5, H5⟩⟩
    sl_exec (disch := first
      | (guard_target = k0_chk1 _; exact row_fits _ (loaded_word_lt harg2 s0 hs _ _))
      | (guard_target = k0_chk2 _; exact row_fits _ (loaded_word_lt harg3 d0 hd _ _))
      | (guard_target = k0_chk3 _; exact row_fits _ (loaded_word_lt harg2 s0 hs _ _))
      | (guard_target = k0_chk4 _; exact row_fits _ (loaded_word_lt harg3 d0 hd _ _))
      | (guard_target = k0_chk5 _; exact row_fits _ (loaded_word_lt harg2 s0 hs _ _))
      | (guard_target = k0_chk6 _; exact row_fits _ (loaded_word_lt harg3 d0 hd _ _))
      | (guard_target = k0_chk7 _; exact row_fits _ (loaded_word_lt harg2 s0 hs _ _))
      | (guard_target = k0_chk8 _; exact row_fits _ (loaded_word_lt harg3 d0 hd _ _))
      | (guard_target = k0_chk9 _; exact row_fits _ (loaded_word_lt harg2 s0 hs _ _))
      | (guard_target = k0_chk10 _; exact row_fits _ (loaded_word_lt harg3 d0 hd _ _))
      | (guard_target = k0_chk11 _; exact row_fits _ (loaded_word_lt harg2 s0 hs _ _))
      | (guard_target = k0_chk12 _; exact row_fits _ (loaded_word_lt harg3 d0 hd _ _))
      | (guard_target = k0_chk13 _; exact row_fits _ (loaded_word_lt harg2 s0 hs _ _))
      | (guard_target = k0_chk14 _; exact row_fits _ (loaded_word_lt harg3 d0 hd _ _))
      | (guard_target = k0_chk15 _; exact row_fits _ (loaded_word_lt harg2 s0 hs _ _))
      | (guard_target = k0_chk16 _; exact row_fits _ (loaded_word_lt harg3 d0 hd _ _)))
    sl_step
    isplitl [H1]; · iexact H1
    isplitl [H2]; · iexact H2
    isplitl [H3]; · iexact H3
    isplitl [H4]
    · iexists _; isplitl [H4]; · iexact H4
      ipureintro
      intro y hy
      have hk : k.val < 32 := Nat.lt_of_lt_of_le k.isLt k0_t1_abs.2.1
      refine (View.read_writes_cons_rows (size := S8x64.size) (W := 8) (o := 8 * k.val) arg4.view f4 _ _ [] y (k0_off25_eq k) rfl rfl).trans ?_
      by_cases h : 8 * k.val ≤ (y (0 : Fin 2)).val ∧ (y (0 : Fin 2)).val < 8 * k.val + 8
      · refine (dif_pos h).trans ?_
        delta sound_kernel.sl.v116
        refine (congrFun (View.readCov_eq_canon' _ _ _) _).trans ?_
        delta sound_kernel.sl.H5_8
        refine (View.canon_apply_of_pieces (tripRows x0 s0 d0 k.val hk) _ ?hG _ (cover8 _ _ _ _ _ _ _ _ _)).trans ?hfin
        case hfin =>
          unfold tripRows
          congr 1
          funext a
          apply Fin.ext
          fin_cases a
          · show 8 * k.val + (0 + 1 * ((y (0 : Fin 2)).val - 8 * k.val)) = (y (0 : Fin 2)).val
            omega
          · show 0 + 1 * ((y (1 : Fin 2)).val - 0) = (y (1 : Fin 2)).val
            omega
        case hG =>
          intro p hp
          simp only [List.mem_cons, List.mem_singleton, List.not_mem_nil, or_false] at hp
          rcases hp with rfl | rfl | rfl | rfl | rfl | rfl | rfl | rfl
          · intro x
            exact piece_ok harg1 x0 s0 d0 hs hd k.val hk 7 (by omega) _ _
              (word_eq harg2 s0 (8 * k.val + 7) (by omega) _ (k0_off22_eq k) _ _)
              (word_eq harg3 d0 (8 * k.val + 7) (by omega) _ (k0_off22_eq k) _ _) _ _ rfl rfl _ _ inb_S8x64_S1x64_7_0 _ (shapeCast_self _ _) x
          · intro x
            exact piece_ok harg1 x0 s0 d0 hs hd k.val hk 6 (by omega) _ _
              (word_eq harg2 s0 (8 * k.val + 6) (by omega) _ (k0_off19_eq k) _ _)
              (word_eq harg3 d0 (8 * k.val + 6) (by omega) _ (k0_off19_eq k) _ _) _ _ rfl rfl _ _ inb_S8x64_S1x64_6_0 _ (shapeCast_self _ _) x
          · intro x
            exact piece_ok harg1 x0 s0 d0 hs hd k.val hk 5 (by omega) _ _
              (word_eq harg2 s0 (8 * k.val + 5) (by omega) _ (k0_off16_eq k) _ _)
              (word_eq harg3 d0 (8 * k.val + 5) (by omega) _ (k0_off16_eq k) _ _) _ _ rfl rfl _ _ inb_S8x64_S1x64_5_0 _ (shapeCast_self _ _) x
          · intro x
            exact piece_ok harg1 x0 s0 d0 hs hd k.val hk 4 (by omega) _ _
              (word_eq harg2 s0 (8 * k.val + 4) (by omega) _ (k0_off13_eq k) _ _)
              (word_eq harg3 d0 (8 * k.val + 4) (by omega) _ (k0_off13_eq k) _ _) _ _ rfl rfl _ _ inb_S8x64_S1x64_4_0 _ (shapeCast_self _ _) x
          · intro x
            exact piece_ok harg1 x0 s0 d0 hs hd k.val hk 3 (by omega) _ _
              (word_eq harg2 s0 (8 * k.val + 3) (by omega) _ (k0_off10_eq k) _ _)
              (word_eq harg3 d0 (8 * k.val + 3) (by omega) _ (k0_off10_eq k) _ _) _ _ rfl rfl _ _ inb_S8x64_S1x64_3_0 _ (shapeCast_self _ _) x
          · intro x
            exact piece_ok harg1 x0 s0 d0 hs hd k.val hk 2 (by omega) _ _
              (word_eq harg2 s0 (8 * k.val + 2) (by omega) _ (k0_off7_eq k) _ _)
              (word_eq harg3 d0 (8 * k.val + 2) (by omega) _ (k0_off7_eq k) _ _) _ _ rfl rfl _ _ inb_S8x64_S1x64_2_0 _ (shapeCast_self _ _) x
          · intro x
            exact piece_ok harg1 x0 s0 d0 hs hd k.val hk 1 (by omega) _ _
              (word_eq harg2 s0 (8 * k.val + 1) (by omega) _ (k0_off4_eq k) _ _)
              (word_eq harg3 d0 (8 * k.val + 1) (by omega) _ (k0_off4_eq k) _ _) _ _ rfl rfl _ _ inb_S8x64_S1x64_1_0 _ (shapeCast_self _ _) x
          · intro x
            exact piece_ok harg1 x0 s0 d0 hs hd k.val hk 0 (by omega) _ _
              (word_eq harg2 s0 (8 * k.val + 0) (by omega) _ (k0_off1_eq k) _ _)
              (word_eq harg3 d0 (8 * k.val + 0) (by omega) _ (k0_off1_eq k) _ _) _ _ rfl rfl _ _ inb_S8x64_S1x64_0_0 _ (shapeCast_self _ _) x
      · refine (dif_neg h).trans ?_
        exact h4 y (by omega)
    iexists _; iexact H5
  · unfold tripInv
    isplitl [H1]; · iexact H1
    isplitl [H2]; · iexact H2
    isplitl [H3]; · iexact H3
    isplitl [H4]
    · iexists _; isplitl [H4]; · iexact H4
      ipureintro; intro y hy; exact absurd hy (by omega)
    iexists _; iexact H5
  · iintro %acc HI
    unfold tripInv
    icases HI with ⟨H1, H2, H3, ⟨%g4, H4, %h4⟩, ⟨%g5, H5⟩⟩
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr
      · ipureintro; funext y; exact h4 y (by rw [trips_eq]; have := idx2_lt0 y; omega)
      iexact H4
    iexists (arg5.view.read (Elt F) g5), g5; isplitr
    · ipureintro; rfl
    iexact H5

variable (m : (ℓ : Loc nD τ sig) → Buf (Elt F) ℓ) (ρ : Dev nD → PrngReg)

/-- What the body needs of the launch memory: at every point, every word of the two index blocks is below 50000, so
    that the row it names lies inside the table. -/
def BlocksOK : Prop :=
  ∀ (c : Dev nD) (t : Fin cfg0.N), (∀ r, (iblk m c 1 t r).toNat < 50000) ∧ (∀ r, (iblk m c 2 t r).toNat < 50000)

/-- The scratch operand: a whole scoped buffer of the kernel's own. -/
abbrev scM : Memref sig .tc .vmem S8x64 .f32 := Memref.whole cc0_scratch0

/-- The pipeline's invariant with the scratch block as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, the index blocks' words are in range, so
    `sound_kernel` applies; the generator register and the core's `owes` pass through unread, the scratch block comes
    back at some contents. -/
theorem sound_body (hH : BlocksOK m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rewrite [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, PhiA0_eq]
  iintro ⟨⟨HS, Hr⟩, Ho, ⟨%d0, H0⟩, ⟨%d1, H1⟩, ⟨%d2, H2⟩, ⟨%d3, H3⟩⟩
  iapply (sound_kernel c Set.univ (grid0.coords t) _ _ _ _ _ _ _ _ _ _ (iblk m c 0 t) (iblk m c 1 t) (iblk m c 2 t) (hH c t).1 (hH c t).2 _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hr]
  · isplitl [HS]; · iexact HS
    iexact Hr
  isplitl [Ho]; · iexact Ho
  isplitl [H0]; · iexact H0
  isplitl [H1]; · iexact H1
  isplitl [H2]; · iexact H2
  iexact H3

/-- The library's body obligation, at every point. -/
theorem body_obligation (hH : BlocksOK m) (c : Dev nD) :
    BodyObligation (dats (F := F) m 0 c) (defs₀ (F := F)) Variants.none () Set.univ := fun t => by
  rw [bigSep_W0, bigSep_W0]
  exact sound_body m hH c t

/-! ## The run and the frame -/

set_option backward.isDefEq.respectTransparency.types false in
/-- For any memory whose index words are in range, from zero counters: every weakly fair execution of @main terminates,
    and every final state has every array of the pipeline at what the library computes from the proof data. -/
theorem run_main (hH : BlocksOK m) : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m hH c).loose) (hshare := fun c => (dats m 0 c).share_full fun _ => rfl)
    (howed := fun _ _ => rfl) (V := V m) (hmain := hmain m Variants.none) (hA := fun _ _ => rfl) (hΦ := fun _ _ => rfl)

/-- The frame: the program runs to its end, nothing faults, and the three argument arrays end unchanged. -/
theorem frame (hH : BlocksOK m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hH)

end Cert.KernelIdeal.Gen

end
-- ==== Proof.BlocksI.lean ====
/-
  From the blocks to the array. At point t the output window's staging buffer ends holding `blockOut` of the three
  input blocks, and the pipeline writes it to rows 256t … 256t + 255 of the [800000, 64] result. The table block is the
  whole table and word r of each index block is word 256t + r of its list, so what point t writes is block t of the
  specification `edgeProduct` of the three argument arrays, read through the window. Row e of the result lies in
  block e / 256, so the 3125 blocks cover the array, and the array ends holding `edgeProduct`.
-/
import proofs.«116091_j24240795419355_2_alg».proof.Proof.WordsI
import proofs.«116091_j24240795419355_2_alg».proof.Proof.DataI
import proofs.«116091_j24240795419355_2_alg».proof.Proof.Gen.KernelIdeal.Frame
import proofs.«116091_j24240795419355_2_alg».proof.Proof.Gen.KernelIdeal.Points
import Idealize.ShloMosaic.Lib.Pipeline.Value

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat)
open Cert.EdgeProduct

variable {F : FTy → Type} [FloatOps F]

/-- One entry of a block's result is the specification's entry, when the block's table is the table and the words its
    row reads are the words the specification's row reads. -/
theorem blockOut_eq_of (x : Vec F S50000x64 .f32) (s d : IVec S256 32) (X : Vec F S50000x64 .f32) (S D : IVec S800000 32)
    (Y : S256x64.Idx) (E : S800000x64.Idx) (hx : x = X)
    (hs : s (ix1 (Y 0 : Fin 256)) = S (ix1 (E 0 : Fin 800000))) (hd : d (ix1 (Y 0 : Fin 256)) = D (ix1 (E 0 : Fin 800000)))
    (hj : (Y 1 : Fin 64) = (E 1 : Fin 64)) :
    blockOut x s d Y = edgeProduct X S D E := by
  subst hx
  show FloatOps.mulf (x (ix2 (rowOf (s (ix1 (Y 0 : Fin 256)))) (Y 1 : Fin 64))) (x (ix2 (rowOf (d (ix1 (Y 0 : Fin 256)))) (Y 1 : Fin 64)))
    = FloatOps.mulf (x (ix2 (rowOf (S (ix1 (E 0 : Fin 800000)))) (E 1 : Fin 64))) (x (ix2 (rowOf (D (ix1 (E 0 : Fin 800000)))) (E 1 : Fin 64)))
  rw [hs, hd, hj]

variable (m : (ℓ : Loc nD τ sig) → Buf (Elt F) ℓ)

/-- A word of the `src` window's block at point t, at any index of the list with the matching coordinate. -/
theorem iblk1_at (c : Dev nD) (t : Fin cfg0.N) (r : S256.Idx) (k : S800000.Idx) (hk : (k 0).val = 256 * t.val + (r 0).val) :
    (iblk m c 1 t : IVec S256 32) r = (V m c main_arg1 : IVec S800000 32) k := by
  obtain ⟨r, rfl⟩ : ∃ r' : Fin 256, r = ix1 r' := ⟨r 0, eq_ix1 r⟩
  obtain ⟨k, rfl⟩ : ∃ k' : Fin 800000, k = ix1 k' := ⟨k 0, eq_ix1 k⟩
  obtain rfl : k = ⟨256 * t.val + r.val, word_lt t r⟩ := Fin.ext hk
  exact iblk1_apply m c t r

/-- The same for `dst`. -/
theorem iblk2_at (c : Dev nD) (t : Fin cfg0.N) (r : S256.Idx) (k : S800000.Idx) (hk : (k 0).val = 256 * t.val + (r 0).val) :
    (iblk m c 2 t : IVec S256 32) r = (V m c main_arg2 : IVec S800000 32) k := by
  obtain ⟨r, rfl⟩ : ∃ r' : Fin 256, r = ix1 r' := ⟨r 0, eq_ix1 r⟩
  obtain ⟨k, rfl⟩ : ∃ k' : Fin 800000, k = ix1 k' := ⟨k 0, eq_ix1 k⟩
  obtain rfl : k = ⟨256 * t.val + r.val, word_lt t r⟩ := Fin.ext hk
  exact iblk2_apply m c t r

/-- What point t writes back is block t of the specification of the argument arrays as the region finds them. -/
theorem flushed_eq (c : Dev nD) (t : Fin cfg0.N) :
    (dats m 0 c).flushed 3 t = ((cfg0.win 3).blk t).view.read (Elt F)
      (edgeProduct (V m c main_arg0) (V m c main_arg1) (V m c main_arg2)) := by
  show (cfg0.win 3).cut (grid0.coords t) ((dats m 0 c).after 3 t) = _
  rw [after0_3]
  obtain ⟨-, -, -, -, e0, e1⟩ := block_index t
  funext y
  rw [View.read_apply]
  show blockOut _ _ _ _ = edgeProduct _ _ _ _
  refine blockOut_eq_of _ _ _ _ _ _ _ _ (iblk0_eq m c t) ?_ ?_ ?_
  · exact iblk1_at m c t _ _ (by
      show win0_3.index t (0 : Fin 2) * 256 + 1 * (y 0).val = 256 * t.val + (y 0).val
      rw [e0]; omega)
  · exact iblk2_at m c t _ _ (by
      show win0_3.index t (0 : Fin 2) * 256 + 1 * (y 0).val = 256 * t.val + (y 0).val
      rw [e0]; omega)
  · exact Fin.ext (by
      show (y 1).val = win0_3.index t (1 : Fin 2) * 64 + 1 * (y 1).val
      rw [e1]; omega)

/-- An index of the result is in point t's block iff each coordinate is in the block's range on its axis. -/
theorem mem_blk (t : Fin cfg0.N) (i : S800000x64.Idx) :
    i ∈ ((cfg0.win 3).blk t).view.set ↔ ∀ a : Fin 2, win0_3.index t a * S256x64.size a ≤ (i a).val
      ∧ (i a).val < win0_3.index t a * S256x64.size a + S256x64.size a := by
  show i ∈ ((View.whole main_v0).slice (win0_3.rect t)).set ↔ _
  rw [View.set_slice_whole, Rect.mem_set_unit]
  exact Iff.rfl

/-- Every index of the result is in the block of the point its row divided by 256 names, and every point writes back. -/
theorem cover (i : S800000x64.Idx) :
    ∃ t : Fin cfg0.N, (cfg0.win 3).flush t = true ∧ i ∈ ((cfg0.win 3).blk t).view.set := by
  have hi0 : (i 0).val < 800000 := (i 0).isLt
  have hi1 : (i 1).val < 64 := (i 1).isLt
  obtain ⟨t, ht⟩ : ∃ t : Fin cfg0.N, t.val = (i 0).val / 256 :=
    ⟨⟨(i 0).val / 256, by rw [show cfg0.N = 3125 from N_0]; omega⟩, rfl⟩
  obtain ⟨-, -, -, -, e0, e1⟩ := block_index t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    rw [e0, ht]; omega
  | ⟨1, _⟩ =>
    show win0_3.index t (1 : Fin 2) * 64 ≤ (i 1).val ∧ (i 1).val < win0_3.index t (1 : Fin 2) * 64 + 64
    rw [e1]; omega

/-- The result array after the run is the specification of the argument arrays. -/
theorem final (c : Dev nD) :
    (dats m 0 c).arrAt 3 cfg0.N = edgeProduct (V m c main_arg0) (V m c main_arg1) (V m c main_arg2) :=
  (dats m 0 c).arrAt_eq_of_cover 3 _ (fun t _ => flushed_eq m c t) cover

end Cert.KernelIdeal.Gen

end
-- ==== Proof.RefValue.lean ====
/-
  The reference's result is the specification. The reference reads, for each edge e, row src[e] and row dst[e] of the
  table and multiplies them column by column. Each read is a gather of whole rows: entry (e, j) of its result is column j
  of the row whose number is the start index at (e, 0), read as a signed integer and clamped into [0, 49999]
  (`gather_rows_apply`, read off the gather's definition coordinate by coordinate). The start index is the word src[e]
  (or dst[e]) after "add 50000 if negative"; a word below 50000 is not negative, so it passes unchanged
  (`start_src`, `start_dst`), the clamp does nothing to it, and the row read is the one `rowOf` names
  (`clamp_eq_rowOf`). The product of the two entries is then the specification's entry (`ref_eq`).
-/
import proofs.«116091_j24240795419355_2_alg».proof.Proof.Gen.ReferenceIdeal.Read
import proofs.«116091_j24240795419355_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable {α : Type}

local notation "gd" => gather_S50000x64_S800000x1_S800000x64_1_0_n_n_0_1_164

/-- The gather of whole rows read at (e, j): column j of the row the start index at (e, 0) names, read signed and
    clamped into [0, 49999]. -/
theorem gather_rows_apply (x : S50000x64.Idx → α) (idx : IVec S800000x1 32) (e : Fin 800000) (j : Fin 64) :
    Host.gather gd x idx (ix2 e j)
      = x (ix2 (⟨min (idx (ix2 e (0 : Fin 1))).toInt.toNat 49999, by omega⟩ : Fin 50000) j) := by
  unfold Host.gather
  refine congrArg x (funext fun a => Fin.ext ?_)
  match a with
  | ⟨0, _⟩ =>
    show GatherDims.start gd (ix2 e j) idx 0 + GatherDims.batchCoord gd (ix2 e j) 0 + GatherDims.offCoord gd (ix2 e j) 0
      = min (idx (ix2 e (0 : Fin 1))).toInt.toNat 49999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gd from List.mem_singleton.mpr rfl)]
    have hsi : GatherDims.siIdx gd (ix2 e j) ⟨List.idxOf (0 : Fin 2) (GatherDims.startIndexMap gd),
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start gd (ix2 e j) idx 1 + GatherDims.batchCoord gd (ix2 e j) 1 + GatherDims.offCoord gd (ix2 e j) 1 = j.val
    have hs : GatherDims.start gd (ix2 e j) idx 1 = 0 := by
      unfold GatherDims.start
      rw [dif_neg (show (1 : Fin 2) ∉ GatherDims.startIndexMap gd from by decide)]
    have ho : GatherDims.offCoord gd (ix2 e j) 1 = j.val := by
      unfold GatherDims.offCoord
      rw [dif_pos (show (1 : Fin 2) ∈ GatherDims.sKept gd from by decide)]
      rfl
    rw [GatherDims.batchCoord_eq_zero _ _ _ List.not_mem_nil, hs, ho, Nat.add_zero, Nat.zero_add]

variable {F : FTy → Type} [FloatOps F]

/-- A word below 50000 is not negative when read signed. -/
theorem slt_zero_of_lt (w : BitVec 32) (h : w.toNat < 50000) : IntOp.cmpi .slt w (0#32) = 0#1 := by
  refine eq_zero_of_ne_one fun hc => ?_
  rw [IntOp.cmpi_slt, BitVec.toInt_eq_toNat_of_lt (by omega), show (0#32 : BitVec 32).toInt = 0 from by decide] at hc
  omega

/-- A word below 50000, read signed and clamped into [0, 49999], names the row `rowOf` gives it. -/
theorem clamp_eq_rowOf (w : BitVec 32) (h : w.toNat < 50000) (hlt : min w.toInt.toNat 49999 < 50000) :
    (⟨min w.toInt.toNat 49999, hlt⟩ : Fin 50000) = Cert.EdgeProduct.rowOf w := by
  refine Fin.ext ?_
  rw [Cert.EdgeProduct.rowOf_val w h]
  show min w.toInt.toNat 49999 = w.toNat
  rw [BitVec.toInt_eq_toNat_of_lt (by omega), Int.toNat_natCast]
  omega

/-- The start index the first gather reads for edge e is the word src[e]: the reference's "add 50000 to a negative
    index" leaves a word in [0, 50000) alone. -/
theorem start_src (x1 : (⟨S800000, .i32⟩ : BufTy).Contents (Elt F)) (e : Fin 800000) (h : (x1 (ix1 e)).toNat < 50000) :
    val_main_v5 (F := F) x1 (ix2 e (0 : Fin 1)) = x1 (ix1 e) := by
  have hidx : idx_main_v5 (ix2 e (0 : Fin 1)) = ix1 e := funext fun a => by match a with | ⟨0, _⟩ => rfl
  rw [val_main_v5_apply, val_main_v4_apply, val_main_v1_apply, val_main_v0_apply, val_main_c_apply, hidx,
    slt_zero_of_lt _ h, select_zero]

/-- The same for the second gather and dst[e]. -/
theorem start_dst (x2 : (⟨S800000, .i32⟩ : BufTy).Contents (Elt F)) (e : Fin 800000) (h : (x2 (ix1 e)).toNat < 50000) :
    val_main_v12 (F := F) x2 (ix2 e (0 : Fin 1)) = x2 (ix1 e) := by
  have hidx : idx_main_v12 (ix2 e (0 : Fin 1)) = ix1 e := funext fun a => by match a with | ⟨0, _⟩ => rfl
  rw [val_main_v12_apply, val_main_v11_apply, val_main_v8_apply, val_main_v7_apply, val_main_c_1_apply, hidx,
    slt_zero_of_lt _ h, select_zero]

/-- The reference's result is the product of the two rows each edge names. -/
theorem ref_eq (x0 : (⟨S50000x64, .f32⟩ : BufTy).Contents (Elt F)) (x1 x2 : (⟨S800000, .i32⟩ : BufTy).Contents (Elt F))
    (h1 : ∀ i, (x1 i).toNat < 50000) (h2 : ∀ i, (x2 i).toNat < 50000) :
    Cert.ReferenceIdeal.Read.val_main_v14 (F := F) x0 x1 x2 = Cert.EdgeProduct.edgeProduct x0 x1 x2 := by
  funext i
  obtain ⟨e, j, rfl⟩ : ∃ (e : Fin 800000) (j : Fin 64), i = ix2 e j := ⟨i 0, i 1, eq_ix2 i⟩
  rw [val_main_v14_apply]
  unfold val_main_v6 val_main_v13
  rw [gather_rows_apply, gather_rows_apply]
  simp only [start_src x1 e (h1 _), start_dst x2 e (h2 _), clamp_eq_rowOf _ (h1 _), clamp_eq_rowOf _ (h2 _)]
  rfl

end Cert.ReferenceIdeal.RefValue

end
-- ==== Proof.lean ====
/-
  The certificate of the edge-product kernel: result[e, j] = h[src e, j] · h[dst e, j] for a table h of 50000 rows
  of 64 numbers and 800000 edges, computed by a kernel that walks the edges in blocks of 256 and groups of 8 against
  the reference's two whole-array gathers and one product.
  The precondition says every table entry is finite and every row number lies in [0, 50000). The second part is what
  both frames of the kernel rest on — a row load at an index outside the table has no meaning — and what makes the
  reference's negative-index wrap and clamp the identity; finiteness is never used, since the two sides are the same
  product of the same two table entries, index by index (no algebraic law is needed to join them).
  The pieces: Spec (the function both sides compute), WordRange (precondition ⇒ every row number, read unsigned, is
  below 50000), WordsB / WordsI (the index blocks at a grid point are consecutive stretches of the index arrays),
  BodyB / BodyI (the kernel body's triple by a loop invariant, the body obligation, the run, the frame, at the
  word-level and the ideal instance), BlocksI (the blocks written back at the 3125 points tile the result array, which
  therefore is the specification), RefValue (the reference's run is the specification). The reference's frame is its
  generated run with the result dropped; the idealization rewrote nothing, so `preserves` is trivial.
-/
import proofs.«116091_j24240795419355_2_alg».proof.Defs
import proofs.«116091_j24240795419355_2_alg».proof.Proof.Gen.Kernel
import proofs.«116091_j24240795419355_2_alg».proof.Proof.Gen.Kernel.Skeleton
import proofs.«116091_j24240795419355_2_alg».proof.Proof.Gen.Kernel.Loops
import proofs.«116091_j24240795419355_2_alg».proof.Proof.Gen.Kernel.Launch
import proofs.«116091_j24240795419355_2_alg».proof.Proof.Gen.Kernel.Points
import proofs.«116091_j24240795419355_2_alg».proof.Proof.Gen.Kernel.Frame
import proofs.«116091_j24240795419355_2_alg».proof.Proof.Gen.KernelIdeal
import proofs.«116091_j24240795419355_2_alg».proof.Proof.Gen.KernelIdeal.Skeleton
import proofs.«116091_j24240795419355_2_alg».proof.Proof.Gen.KernelIdeal.Loops
import proofs.«116091_j24240795419355_2_alg».proof.Proof.Gen.KernelIdeal.Launch
import proofs.«116091_j24240795419355_2_alg».proof.Proof.Gen.KernelIdeal.Points
import proofs.«116091_j24240795419355_2_alg».proof.Proof.Gen.KernelIdeal.Frame
import proofs.«116091_j24240795419355_2_alg».proof.Proof.Gen.ReferenceIdeal
import proofs.«116091_j24240795419355_2_alg».proof.Proof.Gen.ReferenceIdeal.Run
import proofs.«116091_j24240795419355_2_alg».proof.Proof.Gen.ReferenceIdeal.Read
import proofs.«116091_j24240795419355_2_alg».proof.Proof.Gen.Pre_finite_inputs
import proofs.«116091_j24240795419355_2_alg».proof.Proof.Spec
import proofs.«116091_j24240795419355_2_alg».proof.Proof.WordRange
import proofs.«116091_j24240795419355_2_alg».proof.Proof.WordsB
import proofs.«116091_j24240795419355_2_alg».proof.Proof.WordsI
import proofs.«116091_j24240795419355_2_alg».proof.Proof.BodyB
import proofs.«116091_j24240795419355_2_alg».proof.Proof.BodyI
import proofs.«116091_j24240795419355_2_alg».proof.Proof.BlocksI
import proofs.«116091_j24240795419355_2_alg».proof.Proof.RefValue
import Idealize.ShloMosaic.Adequacy
import Idealize.ShloMosaic.Init

noncomputable section

namespace Cert.Proof

open Idealize.ShloMosaic Idealize.ShloMosaic.TcCoe Idealize.SL.Sem

/-- Under the precondition every word of every index block the word-level kernel stages is below 50000. -/
theorem blocksOK_kernel (m : (ℓ : Loc Cert.Kernel.nD Cert.Kernel.τ Cert.Kernel.sig) → Buf (Elt Bits) ℓ) (h : Cert.Pre_Kernel m) :
    Cert.Kernel.Gen.BlocksOK m := fun c t =>
  have w := Cert.EdgeProduct.words_in_range (F := Bits) _ _ _ (h c)
  ⟨Cert.Kernel.Gen.block_words_lt m c w.1 t, Cert.Kernel.Gen.block_words_lt2 m c w.2 t⟩

/-- The same for the idealized kernel. -/
theorem blocksOK_ideal (m : (ℓ : Loc Cert.KernelIdeal.nD Cert.KernelIdeal.τ Cert.KernelIdeal.sig) → Buf (Elt Ideal) ℓ) (h : Cert.Pre_KernelIdeal m) :
    Cert.KernelIdeal.Gen.BlocksOK m := fun c t =>
  have w := Cert.EdgeProduct.words_in_range (F := Ideal) _ _ _ (h c)
  ⟨Cert.KernelIdeal.Gen.block_words_lt m c w.1 t, Cert.KernelIdeal.Gen.block_words_lt2 m c w.2 t⟩

theorem frame_k : Cert.frame_Kernel := fun m ρ h => Cert.Kernel.Gen.frame m ρ (blocksOK_kernel m h)

theorem frame_ki : Cert.frame_KernelIdeal := fun m ρ h => Cert.KernelIdeal.Gen.frame m ρ (blocksOK_ideal m h)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the edge product of the argument arrays: the kernel because the blocks
    its 3125 points write back tile the array and each is the edge product's block, the reference because a gather at
    an in-range row number reads that row. -/
theorem algebraic : Cert.algebraic_KernelIdeal_ReferenceIdeal := by
  intro m ρ m' ρ' hpre hagree
  have hH := blocksOK_ideal m hpre
  refine ⟨fun c => Cert.EdgeProduct.edgeProduct (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Gen.run_main m ρ hH)
    · exact ((h c).1 3).trans (Cert.KernelIdeal.Gen.final m c)
    · exact ((h c).1 0).trans ((Cert.KernelIdeal.Gen.dats m 0 c).arrAt_in 0 rfl _)
    · exact ((h c).1 1).trans ((Cert.KernelIdeal.Gen.dats m 0 c).arrAt_in 1 rfl _)
    · exact ((h c).1 2).trans ((Cert.KernelIdeal.Gen.dats m 0 c).arrAt_in 2 rfl _)
  · have w := fun c => Cert.EdgeProduct.words_in_range (F := Ideal) _ _ _ (hpre c)
    refine (θ_run Cert.ReferenceIdeal.defs _ _).mono (fun _ h c => ⟨?_, (h c).2⟩) (Cert.ReferenceIdeal.Value.run (F := Ideal) m' ρ')
    rw [(h c).1, Cert.ReferenceIdeal.Read.val_main_v14_eq, (hagree c).1, (hagree c).2.1, (hagree c).2.2]
    exact Cert.ReferenceIdeal.RefValue.ref_eq _ _ _ (w c).1 (w c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
